-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S8x2048x2048 : Shape := ⟨3, ![8, 2048, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn_part1 {F : FTy → Type} [FloatOps F] (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  main_v18

def fn {F : FTy → Type} [FloatOps F] (main_arg0 : FVec F S4x8x2048x64 .f32) (main_arg1 : FVec F S4x8x2048x64 .f32) (main_arg2 : FVec F S4x8x2048x64 .f32) (main_arg3 : IVec S8x2048x2048 32) (main_arg4 : FVec F S8x2048x2048 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  let main_v14 : FVec F S8x2048x2048 .f32 := Host.absf main_arg4
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_v13 main_v16
-- ==== Kernel.lean ====
abbrev S4x8x2048x64 : Shape := ⟨4, ![4, 8, 2048, 64]⟩
abbrev S8x2048x2048 : Shape := ⟨3, ![8, 2048, 2048]⟩
abbrev S4x8x2048x2048 : Shape := ⟨4, ![4, 8, 2048, 2048]⟩
abbrev S4x1x128x64 : Shape := ⟨4, ![4, 1, 128, 64]⟩
abbrev S4x1x2048x64 : Shape := ⟨4, ![4, 1, 2048, 64]⟩
abbrev S1x128x2048 : Shape := ⟨3, ![1, 128, 2048]⟩
abbrev S4x1x128x2048 : Shape := ⟨4, ![4, 1, 128, 2048]⟩
abbrev S128x2048 : Shape := ⟨2, ![128, 2048]⟩
abbrev S1x1x128x64 : Shape := ⟨4, ![1, 1, 128, 64]⟩
abbrev S128x64 : Shape := ⟨2, ![128, 64]⟩
abbrev S1x1x2048x64 : Shape := ⟨4, ![1, 1, 2048, 64]⟩
abbrev S2048x64 : Shape := ⟨2, ![2048, 64]⟩
abbrev S128 : Shape := ⟨1, ![128]⟩
abbrev S128x1 : Shape := ⟨2, ![128, 1]⟩
abbrev S1x1x128x2048 : Shape := ⟨4, ![1, 1, 128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S8x2048x2048, .i32⟩
  | .hbm, ⟨4, _⟩ => ⟨S8x2048x2048, .f32⟩
  | .hbm, ⟨5, _⟩ => ⟨S4x8x2048x64, .f32⟩
  | .hbm, ⟨6, _⟩ => ⟨S4x8x2048x2048, .f32⟩
  | .local _ .vmem, ⟨0, _⟩ => ⟨S4x1x128x64, .f32⟩
  | .local _ .vmem, ⟨1, _⟩ => ⟨S4x1x128x64, .f32⟩
  | .local _ .vmem, ⟨2, _⟩ => ⟨S4x1x2048x64, .f32⟩
  | .local _ .vmem, ⟨3, _⟩ => ⟨S4x1x2048x64, .f32⟩
  | .local _ .vmem, ⟨4, _⟩ => ⟨S4x1x2048x64, .f32⟩
  | .local _ .vmem, ⟨5, _⟩ => ⟨S4x1x2048x64, .f32⟩
  | .local _ .vmem, ⟨6, _⟩ => ⟨S1x128x2048, .i32⟩
  | .local _ .vmem, ⟨7, _⟩ => ⟨S1x128x2048, .i32⟩
  | .local _ .vmem, ⟨8, _⟩ => ⟨S1x128x2048, .f32⟩
  | .local _ .vmem, ⟨9, _⟩ => ⟨S1x128x2048, .f32⟩
  | .local _ .vmem, ⟨10, _⟩ => ⟨S4x1x128x64, .f32⟩
  | .local _ .vmem, ⟨11, _⟩ => ⟨S4x1x128x64, .f32⟩
  | .local _ .vmem, ⟨12, _⟩ => ⟨S4x1x128x2048, .f32⟩
  | .local _ .vmem, ⟨13, _⟩ => ⟨S4x1x128x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_5 : BitVec 32 := 0#32
  let c4_i32 : BitVec 32 := 4#32
  let v6 : BitVec 32 := Scalar.addi c0_i32_5 c4_i32
  let c1_i32 : BitVec 32 := 1#32
  ⟨c0_i32_5, v6, c1_i32⟩
def k0_off1 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v7 : Index := Scalar.indexCast arg9
  let c0_7 : Index := 0#32
  let c0_8 : Index := 0#32
  let c0_9 : Index := 0#32
  ![v7.toNat, 0, 0, 0]
def k0_off2 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v11 : Index := Scalar.indexCast arg9
  let c0_10 : Index := 0#32
  let c0_11 : Index := 0#32
  let c0_12 : Index := 0#32
  ![v11.toNat, 0, 0, 0]
def k0_off3 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v34 : Index := Scalar.indexCast arg9
  let c0_20 : Index := 0#32
  let c0_21 : Index := 0#32
  let c0_22 : Index := 0#32
  ![v34.toNat, 0, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S4x1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  h_S1x1x128x64 : 0 < S1x1x128x64.numel
  shapeCasts_S1x1x128x64_S128x64 : S1x1x128x64.ShapeCasts S128x64
  bitsLt_bf16_f32 : FTy.bits .bf16 < FTy.bits .f32
  h_S1x1x2048x64 : 0 < S1x1x2048x64.numel
  shapeCasts_S1x1x2048x64_S2048x64 : S1x1x2048x64.ShapeCasts S2048x64
  reduces_S128x2048_S128 : S128x2048.Reduces [1] S128
  shapeCasts_S128_S128x1 : S128.ShapeCasts S128x1
  broadcasts_S128x1_S128x2048 : S128x1.Broadcasts S128x2048
  h_S1x1x128x2048 : 0 < S1x1x128x2048.numel
  shapeCasts_S1x1x128x2048_S128x2048 : S1x1x128x2048.ShapeCasts S128x2048
  shapeCasts_S128x2048_S1x1x128x2048 : S128x2048.ShapeCasts S1x1x128x2048
  shapeCasts_S128x64_S1x1x128x64 : S128x64.ShapeCasts S1x1x128x64
  dot_S128x64_S2048x64_S128x2048_1_1_0_0_n_n_wf : DotDims.WF S128x64 S2048x64 S128x2048 [1] [1] [0] [0] [] []
  dot_S128x2048_S2048x64_S128x64_1_0_0_1_n_n_wf : DotDims.WF S128x2048 S2048x64 S128x64 [1] [0] [0] [1] [] []
  hrank0 : 0 < grid0.rank
  k0_t1_ok : k0_t1_loop.OK
  k0_off1_inb : ∀ k0_t1 : Fin k0_t1_loop.trips, ∀ a, (k0_off1 k0_t1) a + S1x1x128x64.size a ≤ S4x1x128x64.size a
  k0_off2_inb : ∀ k0_t1 : Fin k0_t1_loop.trips, ∀ a, (k0_off2 k0_t1) a + S1x1x2048x64.size a ≤ S4x1x2048x64.size a
  k0_off3_inb : ∀ k0_t1 : Fin k0_t1_loop.trips, ∀ a, (k0_off3 k0_t1) a + S1x1x128x2048.size a ≤ S4x1x128x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x128x64.size a ≤ S4x8x2048x64.size a
  hwx0_0 : ∀ i : grid0.Coords, EltTy.bits .f32 = 32 ∨ (Rect.block (s := S4x8x2048x64) S4x1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x2048x64.size a ≤ S4x8x2048x64.size a
  hwx0_1 : ∀ i : grid0.Coords, EltTy.bits .f32 = 32 ∨ (Rect.block (s := S4x8x2048x64) S4x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x2048x64.size a ≤ S4x8x2048x64.size a
  hwx0_2 : ∀ i : grid0.Coords, EltTy.bits .f32 = 32 ∨ (Rect.block (s := S4x8x2048x64) S4x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S8x2048x2048.size a
  hwx0_3 : ∀ i : grid0.Coords, EltTy.bits .i32 = 32 ∨ (Rect.block (s := S8x2048x2048) S1x128x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S8x2048x2048.size a
  hwx0_4 : ∀ i : grid0.Coords, EltTy.bits .f32 = 32 ∨ (Rect.block (s := S8x2048x2048) S1x128x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1x128x64.size a ≤ S4x8x2048x64.size a
  hwx0_5 : ∀ i : grid0.Coords, EltTy.bits .f32 = 32 ∨ (Rect.block (s := S4x8x2048x64) S4x1x128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1x128x2048.size a ≤ S4x8x2048x2048.size a
  hwx0_6 : ∀ i : grid0.Coords, EltTy.bits .f32 = 32 ∨ (Rect.block (s := S4x8x2048x2048) S4x1x128x2048.size (cc0_transform_6 i) (hinb0_6 i)).WholeWords (EltTy.packing .f32)

variable [Facts₀]

def dot_S128x64_S2048x64_S128x2048_1_1_0_0_n_n : DotDims S128x64 S2048x64 S128x2048 where
  lhsContracting := [1]
  rhsContracting := [1]
  lhsNonContracting := [0]
  rhsNonContracting := [0]
  lhsBatch := []
  rhsBatch := []
  wf := dot_S128x64_S2048x64_S128x2048_1_1_0_0_n_n_wf
def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf

abbrev win0_0 : Pipeline.Window sig grid0 :=
  Pipeline.Window.ofSpec (Memref.whole main_arg0) S4x1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S4x1x128x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S4x1x128x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S8x2048x2048 : Shape := ⟨3, ![8, 2048, 2048]⟩
abbrev S4x8x2048x2048 : Shape := ⟨4, ![4, 8, 2048, 2048]⟩
abbrev S_ : Shape := ⟨0, ![]⟩
abbrev S1x8x2048x2048 : Shape := ⟨4, ![1, 8, 2048, 2048]⟩
abbrev S4x8x2048 : Shape := ⟨3, ![4, 8, 2048]⟩
abbrev S4x8x2048x1 : Shape := ⟨4, ![4, 8, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S8x2048x2048, .i32⟩
  | .hbm, ⟨4, _⟩ => ⟨S8x2048x2048, .f32⟩
  | .hbm, ⟨5, _⟩ => ⟨S4x8x2048x2048, .f32⟩
  | .hbm, ⟨6, _⟩ => ⟨S_, .f32⟩
  | .hbm, ⟨7, _⟩ => ⟨S4x8x2048x2048, .f32⟩
  | .hbm, ⟨8, _⟩ => ⟨S4x8x2048x2048, .f32⟩
  | .hbm, ⟨9, _⟩ => ⟨S1x8x2048x2048, .f32⟩
  | .hbm, ⟨10, _⟩ => ⟨S4x8x2048x2048, .f32⟩
  | .hbm, ⟨11, _⟩ => ⟨S4x8x2048x2048, .f32⟩
  | .hbm, ⟨12, _⟩ => ⟨S1x8x2048x2048, .i32⟩
  | .hbm, ⟨13, _⟩ => ⟨S_, .i32⟩
  | .hbm, ⟨14, _⟩ => ⟨S1x8x2048x2048, .i32⟩
  | .hbm, ⟨15, _⟩ => ⟨S1x8x2048x2048, .i1⟩
  | .hbm, ⟨16, _⟩ => ⟨S_, .f32⟩
  | .hbm, ⟨17, _⟩ => ⟨S_, .f32⟩
  | .hbm, ⟨18, _⟩ => ⟨S4x8x2048x2048, .i1⟩
  | .hbm, ⟨19, _⟩ => ⟨S4x8x2048x2048, .f32⟩
  | .hbm, ⟨20, _⟩ => ⟨S4x8x2048x2048, .f32⟩
  | .hbm, ⟨21, _⟩ => ⟨S_, .f32⟩
  | .hbm, ⟨22, _⟩ => ⟨S4x8x2048, .f32⟩
  | .hbm, ⟨23, _⟩ => ⟨S_, .f32⟩
  | .hbm, ⟨24, _⟩ => ⟨S4x8x2048, .f32⟩
  | .hbm, ⟨25, _⟩ => ⟨S4x8x2048, .f32⟩
  | .hbm, ⟨26, _⟩ => ⟨S4x8x2048x1, .f32⟩
  | .hbm, ⟨27, _⟩ => ⟨S4x8x2048x2048, .f32⟩
  | .hbm, ⟨28, _⟩ => ⟨S4x8x2048x2048, .f32⟩
  | .hbm, ⟨29, _⟩ => ⟨S4x8x2048x2048, .f32⟩
  | .hbm, ⟨30, _⟩ => ⟨S_, .f32⟩
  | .hbm, ⟨31, _⟩ => ⟨S4x8x2048, .f32⟩
  | .hbm, ⟨32, _⟩ => ⟨S4x8x2048x1, .f32⟩
  | .hbm, ⟨33, _⟩ => ⟨S4x8x2048x2048, .f32⟩
  | .hbm, ⟨34, _⟩ => ⟨S4x8x2048x2048, .f32⟩
  | .hbm, ⟨35, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S_S4x8x2048x2048 : S_.BroadcastsInDim S4x8x2048x2048 (![] : Fin 0 → Fin S4x8x2048x2048.rank)
  bcast_S8x2048x2048_S1x8x2048x2048_1_2_3 : S8x2048x2048.BroadcastsInDim S1x8x2048x2048 (![1, 2, 3] : Fin 3 → Fin S1x8x2048x2048.rank)
  bcast_S1x8x2048x2048_S4x8x2048x2048_0_1_2_3 : S1x8x2048x2048.BroadcastsInDim S4x8x2048x2048 (![0, 1, 2, 3] : Fin 4 → Fin S4x8x2048x2048.rank)
  bcast_S_S1x8x2048x2048 : S_.BroadcastsInDim S1x8x2048x2048 (![] : Fin 0 → Fin S1x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.KernelBody.lean ====
/-
  What one grid point's body leaves in the two output staging buffers, as functions of the buffers' index.

  The body's loop runs once per batch entry b: trip b stores, at offset (b, 0, 0, 0), one [1, 1, 128, 2048] block of
  probabilities and one [1, 1, 128, 64] block of outputs, each a function of the trip's slices of the q, k, v blocks
  and of the point's bias and mask tiles. The four trips' blocks tile each buffer, so the buffer ends holding, at
  (b, u, r, ·), trip b's block at (0, 0, r, ·). Here: the trip's two stored pieces (the trip's definition opened
  once), the pieces of the trips before n by induction, and the buffers' contents as those single functions.
-/
import proofs.«160644_j20744692040185_2_alg».proof.Proof.KernelIdealFrameP
import Idealize.ShloMosaic.Lib.ValueIdx
import Idealize.ShloMosaic.Lib.Pipeline.Value

set_option maxRecDepth 16384

noncomputable section

namespace Cert.KernelIdeal.Body

open Cert.KernelIdeal Cert.KernelIdeal.Gen Cert.KernelIdeal.GenP
open Idealize.ShloMosaic Idealize.ShloMosaic.TcCoe Idealize.ShloMosaic.ValueIdx
open Idealize.SL Idealize.SL.Sem

variable {F : FTy → Type} [FloatOps F] [Named F]

/-- The loop runs four trips, one per batch entry. -/
theorem trips_eq : k0_t1_loop.trips = 4 := by decide +kernel

/-- A batch coordinate names a trip. -/
theorem lt_trips (b : Fin 4) : b.val < k0_t1_loop.trips := by rw [trips_eq]; exact b.isLt

/-! ## One trip's stores -/

/-- The block of outputs trip k stores: the payload of the trip's slices of the q, k and v blocks. -/
def outBlock (arg2 : Memref sig .tc .vmem S4x1x128x64 .f32) (arg3 arg4 : Memref sig .tc .vmem S4x1x2048x64 .f32) (v0 : Vec F S1x128x2048 .f32) (v2 : Vec F S1x128x2048 .i32) (X2 : BufTy.Contents (Elt F) arg2.view.ty) (X3 : BufTy.Contents (Elt F) arg3.view.ty) (X4 : BufTy.Contents (Elt F) arg4.view.ty) (k : Fin k0_t1_loop.trips) : FVec F S1x1x128x64 .f32 :=
  k0_pay5 (k0_pay1 v0) (k0_pay2 v2) (View.readAt (Elt F) arg2.view (Rect.unit (s := S4x1x128x64) (k0_off1 k) S1x1x128x64.size (k0_off1_inb k)).toLoadRect X2)
    (View.readAt (Elt F) arg3.view (Rect.unit (s := S4x1x2048x64) (k0_off2 k) S1x1x2048x64.size (k0_off2_inb k)).toLoadRect X3) (View.readAt (Elt F) arg4.view (Rect.unit (s := S4x1x2048x64) (k0_off2 k) S1x1x2048x64.size (k0_off2_inb k)).toLoadRect X4)

/-- The block of probabilities trip k stores: the payload of the trip's slices of the q and k blocks. -/
def probsBlock (arg2 : Memref sig .tc .vmem S4x1x128x64 .f32) (arg3 : Memref sig .tc .vmem S4x1x2048x64 .f32) (v0 : Vec F S1x128x2048 .f32) (v2 : Vec F S1x128x2048 .i32) (X2 : BufTy.Contents (Elt F) arg2.view.ty) (X3 : BufTy.Contents (Elt F) arg3.view.ty) (k : Fin k0_t1_loop.trips) : FVec F S1x1x128x2048 .f32 :=
  k0_pay4 (k0_pay1 v0) (k0_pay2 v2) (View.readAt (Elt F) arg2.view (Rect.unit (s := S4x1x128x64) (k0_off1 k) S1x1x128x64.size (k0_off1_inb k)).toLoadRect X2)
    (View.readAt (Elt F) arg3.view (Rect.unit (s := S4x1x2048x64) (k0_off2 k) S1x1x2048x64.size (k0_off2_inb k)).toLoadRect X3)

/-- Trip k stores exactly one piece into each output buffer: its output block at offset (k, 0, 0, 0) and its
    probabilities block at offset (k, 0, 0, 0), whatever the buffers held. -/
theorem trip_pieces (𝒱 : Variants) (c : Dev nD) (bd : Option 𝒱.V) (i : grid0.Coords) (arg2 : Memref sig .tc .vmem S4x1x128x64 .f32) (harg2 : arg2.IsWhole) (arg3 : Memref sig .tc .vmem S4x1x2048x64 .f32) (harg3 : arg3.IsWhole) (arg4 : Memref sig .tc .vmem S4x1x2048x64 .f32) (harg4 : arg4.IsWhole) (arg5 : Memref sig .tc .vmem S1x128x2048 .i32) (harg5 : arg5.IsWhole) (arg6 : Memref sig .tc .vmem S1x128x2048 .f32) (harg6 : arg6.IsWhole) (arg7 : Memref sig .tc .vmem S4x1x128x64 .f32) (harg7 : arg7.IsWhole) (arg8 : Memref sig .tc .vmem S4x1x128x2048 .f32) (harg8 : arg8.IsWhole) (v0 : Vec F S1x128x2048 .f32) (v2 : Vec F S1x128x2048 .i32) (X_arg2 : BufTy.Contents (Elt F) arg2.view.ty) (X_arg3 : BufTy.Contents (Elt F) arg3.view.ty) (X_arg4 : BufTy.Contents (Elt F) arg4.view.ty) (k : Fin k0_t1_loop.trips)
    (f7 : BufTy.Contents (Elt F) arg7.view.ty) (f8 : BufTy.Contents (Elt F) arg8.view.ty) :
    tripL_k0_t1 (F := F) 𝒱 c bd i arg2 harg2 arg3 harg3 arg4 harg4 arg5 harg5 arg6 harg6 arg7 harg7 arg8 harg8 v0 v2 X_arg2 X_arg3 X_arg4 k f7 f8
      = ([(⟨(Rect.unit (s := S4x1x128x64) (k0_off1 k) S1x1x128x64.size (k0_off1_inb k)), outBlock arg2 arg3 arg4 v0 v2 X_arg2 X_arg3 X_arg4 k⟩ : View.Piece (Elt F) S4x1x128x64 .f32)],
         [(⟨(Rect.unit (s := S4x1x128x2048) (k0_off3 k) S1x1x128x2048.size (k0_off3_inb k)), probsBlock arg2 arg3 v0 v2 X_arg2 X_arg3 k⟩ : View.Piece (Elt F) S4x1x128x2048 .f32)]) := by
  unfold tripL_k0_t1 trip_k0_t1
  rfl

/-- Every piece the trips before n stored is some trip's block at that trip's offset. -/
theorem pb_mem (𝒱 : Variants) (c : Dev nD) (bd : Option 𝒱.V) (i : grid0.Coords) (arg2 : Memref sig .tc .vmem S4x1x128x64 .f32) (harg2 : arg2.IsWhole) (arg3 : Memref sig .tc .vmem S4x1x2048x64 .f32) (harg3 : arg3.IsWhole) (arg4 : Memref sig .tc .vmem S4x1x2048x64 .f32) (harg4 : arg4.IsWhole) (arg5 : Memref sig .tc .vmem S1x128x2048 .i32) (harg5 : arg5.IsWhole) (arg6 : Memref sig .tc .vmem S1x128x2048 .f32) (harg6 : arg6.IsWhole) (arg7 : Memref sig .tc .vmem S4x1x128x64 .f32) (harg7 : arg7.IsWhole) (arg8 : Memref sig .tc .vmem S4x1x128x2048 .f32) (harg8 : arg8.IsWhole) (v0 : Vec F S1x128x2048 .f32) (v2 : Vec F S1x128x2048 .i32) (X_arg2 : BufTy.Contents (Elt F) arg2.view.ty) (X_arg3 : BufTy.Contents (Elt F) arg3.view.ty) (X_arg4 : BufTy.Contents (Elt F) arg4.view.ty)
    (G7 : BufTy.Contents (Elt F) arg7.view.ty) (G8 : BufTy.Contents (Elt F) arg8.view.ty) : ∀ n : ℕ,
    (∀ p ∈ (pb_k0_t1 (F := F) 𝒱 c bd i arg2 harg2 arg3 harg3 arg4 harg4 arg5 harg5 arg6 harg6 arg7 harg7 arg8 harg8 v0 v2 X_arg2 X_arg3 X_arg4 G7 G8 n).1, ∃ k : Fin k0_t1_loop.trips,
        p = (⟨(Rect.unit (s := S4x1x128x64) (k0_off1 k) S1x1x128x64.size (k0_off1_inb k)), outBlock arg2 arg3 arg4 v0 v2 X_arg2 X_arg3 X_arg4 k⟩ : View.Piece (Elt F) S4x1x128x64 .f32))
    ∧ (∀ p ∈ (pb_k0_t1 (F := F) 𝒱 c bd i arg2 harg2 arg3 harg3 arg4 harg4 arg5 harg5 arg6 harg6 arg7 harg7 arg8 harg8 v0 v2 X_arg2 X_arg3 X_arg4 G7 G8 n).2, ∃ k : Fin k0_t1_loop.trips,
        p = (⟨(Rect.unit (s := S4x1x128x2048) (k0_off3 k) S1x1x128x2048.size (k0_off3_inb k)), probsBlock arg2 arg3 v0 v2 X_arg2 X_arg3 k⟩ : View.Piece (Elt F) S4x1x128x2048 .f32))
  | 0 => ⟨fun p hp => absurd hp List.not_mem_nil, fun p hp => absurd hp List.not_mem_nil⟩
  | n + 1 => by
    obtain ⟨ih1, ih2⟩ := pb_mem 𝒱 c bd i arg2 harg2 arg3 harg3 arg4 harg4 arg5 harg5 arg6 harg6 arg7 harg7 arg8 harg8 v0 v2 X_arg2 X_arg3 X_arg4 G7 G8 n
    rw [pb_k0_t1.eq_2]
    unfold pb_k0_t1Step
    by_cases h : n < k0_t1_loop.trips
    · rw [dif_pos h, trip_pieces]
      refine ⟨fun p hp => ?_, fun p hp => ?_⟩
      · rcases List.mem_append.mp hp with hp | hp
        · exact ⟨⟨n, h⟩, List.mem_singleton.mp hp⟩
        · exact ih1 p hp
      · rcases List.mem_append.mp hp with hp | hp
        · exact ⟨⟨n, h⟩, List.mem_singleton.mp hp⟩
        · exact ih2 p hp
    · rw [dif_neg h]
      exact ⟨ih1, ih2⟩

/-! ## The buffers' contents as single functions -/

/-- What the output buffer holds after the body: at (b, u, r, d), trip b's output block at (0, 0, r, d). -/
def outBuf (arg2 : Memref sig .tc .vmem S4x1x128x64 .f32) (arg3 arg4 : Memref sig .tc .vmem S4x1x2048x64 .f32) (v0 : Vec F S1x128x2048 .f32) (v2 : Vec F S1x128x2048 .i32) (X2 : BufTy.Contents (Elt F) arg2.view.ty) (X3 : BufTy.Contents (Elt F) arg3.view.ty) (X4 : BufTy.Contents (Elt F) arg4.view.ty) : S4x1x128x64.Idx → Elt F .f32 := fun y =>
  outBlock arg2 arg3 arg4 v0 v2 X2 X3 X4 ⟨(y 0).val, lt_trips (y 0)⟩ (ix4 (0 : Fin 1) (0 : Fin 1) (y 2) (y 3))

/-- What the probabilities buffer holds after the body: at (b, u, r, c), trip b's probabilities block at (0, 0, r, c). -/
def probsBuf (arg2 : Memref sig .tc .vmem S4x1x128x64 .f32) (arg3 : Memref sig .tc .vmem S4x1x2048x64 .f32) (v0 : Vec F S1x128x2048 .f32) (v2 : Vec F S1x128x2048 .i32) (X2 : BufTy.Contents (Elt F) arg2.view.ty) (X3 : BufTy.Contents (Elt F) arg3.view.ty) : S4x1x128x2048.Idx → Elt F .f32 := fun y =>
  probsBlock arg2 arg3 v0 v2 X2 X3 ⟨(y 0).val, lt_trips (y 0)⟩ (ix4 (0 : Fin 1) (0 : Fin 1) (y 2) (y 3))

/-- Trip k's output block is the block of `outBuf` at the trip's offset. -/
theorem outBlock_eq_buf (arg2 : Memref sig .tc .vmem S4x1x128x64 .f32) (arg3 arg4 : Memref sig .tc .vmem S4x1x2048x64 .f32) (v0 : Vec F S1x128x2048 .f32) (v2 : Vec F S1x128x2048 .i32) (X2 : BufTy.Contents (Elt F) arg2.view.ty) (X3 : BufTy.Contents (Elt F) arg3.view.ty) (X4 : BufTy.Contents (Elt F) arg4.view.ty) (k : Fin k0_t1_loop.trips) (x : (Rect.unit (s := S4x1x128x64) (k0_off1 k) S1x1x128x64.size (k0_off1_inb k)).shape.Idx) :
    outBlock arg2 arg3 arg4 v0 v2 X2 X3 X4 k x = outBuf arg2 arg3 arg4 v0 v2 X2 X3 X4 ((Rect.unit (s := S4x1x128x64) (k0_off1 k) S1x1x128x64.size (k0_off1_inb k)).emb x) := by
  have hk : (⟨((Rect.unit (s := S4x1x128x64) (k0_off1 k) S1x1x128x64.size (k0_off1_inb k)).emb x 0).val, lt_trips ((Rect.unit (s := S4x1x128x64) (k0_off1 k) S1x1x128x64.size (k0_off1_inb k)).emb x 0)⟩ : Fin k0_t1_loop.trips) = k := Fin.ext (by
    have h : (x 0).val < 1 := (x 0).isLt
    have e0 : k0_off1 k 0 = k.val := congrFun (k0_off1_eq k) 0
    show k0_off1 k 0 + 1 * (x 0).val = k.val
    omega)
  have hx : (ix4 (0 : Fin 1) (0 : Fin 1) ((Rect.unit (s := S4x1x128x64) (k0_off1 k) S1x1x128x64.size (k0_off1_inb k)).emb x 2) ((Rect.unit (s := S4x1x128x64) (k0_off1 k) S1x1x128x64.size (k0_off1_inb k)).emb x 3) : S1x1x128x64.Idx) = x := funext fun a => Fin.ext (by
    match a with
    | ⟨0, _⟩ => have h : (x 0).val < 1 := (x 0).isLt; show 0 = (x 0).val; omega
    | ⟨1, _⟩ => have h : (x 1).val < 1 := (x 1).isLt; show 0 = (x 1).val; omega
    | ⟨2, _⟩ => have e : k0_off1 k 2 = 0 := congrFun (k0_off1_eq k) 2; show k0_off1 k 2 + 1 * (x 2).val = (x 2).val; omega
    | ⟨3, _⟩ => have e : k0_off1 k 3 = 0 := congrFun (k0_off1_eq k) 3; show k0_off1 k 3 + 1 * (x 3).val = (x 3).val; omega)
  unfold outBuf
  exact (congrArg₂ (outBlock arg2 arg3 arg4 v0 v2 X2 X3 X4) hk hx).symm

/-- Trip k's probabilities block is the block of `probsBuf` at the trip's offset. -/
theorem probsBlock_eq_buf (arg2 : Memref sig .tc .vmem S4x1x128x64 .f32) (arg3 : Memref sig .tc .vmem S4x1x2048x64 .f32) (v0 : Vec F S1x128x2048 .f32) (v2 : Vec F S1x128x2048 .i32) (X2 : BufTy.Contents (Elt F) arg2.view.ty) (X3 : BufTy.Contents (Elt F) arg3.view.ty) (k : Fin k0_t1_loop.trips) (x : (Rect.unit (s := S4x1x128x2048) (k0_off3 k) S1x1x128x2048.size (k0_off3_inb k)).shape.Idx) :
    probsBlock arg2 arg3 v0 v2 X2 X3 k x = probsBuf arg2 arg3 v0 v2 X2 X3 ((Rect.unit (s := S4x1x128x2048) (k0_off3 k) S1x1x128x2048.size (k0_off3_inb k)).emb x) := by
  have hk : (⟨((Rect.unit (s := S4x1x128x2048) (k0_off3 k) S1x1x128x2048.size (k0_off3_inb k)).emb x 0).val, lt_trips ((Rect.unit (s := S4x1x128x2048) (k0_off3 k) S1x1x128x2048.size (k0_off3_inb k)).emb x 0)⟩ : Fin k0_t1_loop.trips) = k := Fin.ext (by
    have h : (x 0).val < 1 := (x 0).isLt
    have e0 : k0_off3 k 0 = k.val := congrFun (k0_off3_eq k) 0
    show k0_off3 k 0 + 1 * (x 0).val = k.val
    omega)
  have hx : (ix4 (0 : Fin 1) (0 : Fin 1) ((Rect.unit (s := S4x1x128x2048) (k0_off3 k) S1x1x128x2048.size (k0_off3_inb k)).emb x 2) ((Rect.unit (s := S4x1x128x2048) (k0_off3 k) S1x1x128x2048.size (k0_off3_inb k)).emb x 3) : S1x1x128x2048.Idx) = x := funext fun a => Fin.ext (by
    match a with
    | ⟨0, _⟩ => have h : (x 0).val < 1 := (x 0).isLt; show 0 = (x 0).val; omega
    | ⟨1, _⟩ => have h : (x 1).val < 1 := (x 1).isLt; show 0 = (x 1).val; omega
    | ⟨2, _⟩ => have e : k0_off3 k 2 = 0 := congrFun (k0_off3_eq k) 2; show k0_off3 k 2 + 1 * (x 2).val = (x 2).val; omega
    | ⟨3, _⟩ => have e : k0_off3 k 3 = 0 := congrFun (k0_off3_eq k) 3; show k0_off3 k 3 + 1 * (x 3).val = (x 3).val; omega)
  unfold probsBuf
  exact (congrArg₂ (probsBlock arg2 arg3 v0 v2 X2 X3) hk hx).symm

/-! ## The run's two buffers -/

/-- After the body the output buffer holds `outBuf` of the point's blocks: the run's pieces are the four trips' blocks,
    they cover the buffer, and each is a block of `outBuf`. -/
theorem out5_eq (c : Dev nD) (i : grid0.Coords) (arg2 : Memref sig .tc .vmem S4x1x128x64 .f32) (harg2 : arg2.IsWhole) (arg3 : Memref sig .tc .vmem S4x1x2048x64 .f32) (harg3 : arg3.IsWhole) (arg4 : Memref sig .tc .vmem S4x1x2048x64 .f32) (harg4 : arg4.IsWhole) (arg5 : Memref sig .tc .vmem S1x128x2048 .i32) (harg5 : arg5.IsWhole) (arg6 : Memref sig .tc .vmem S1x128x2048 .f32) (harg6 : arg6.IsWhole) (arg7 : Memref sig .tc .vmem S4x1x128x64 .f32) (harg7 : arg7.IsWhole) (arg8 : Memref sig .tc .vmem S4x1x128x2048 .f32) (harg8 : arg8.IsWhole) (x0 : Vec F S4x1x128x64 .f32) (x1 : Vec F S4x1x2048x64 .f32) (x2 : Vec F S4x1x2048x64 .f32) (x3 : Vec F S1x128x2048 .i32) (x4 : Vec F S1x128x2048 .f32) (y : S4x1x128x64.Idx) :
    out0_A_5 (F := F) c i arg2 harg2 arg3 harg3 arg4 harg4 arg5 harg5 arg6 harg6 arg7 harg7 arg8 harg8 x0 x1 x2 x3 x4 y
      = outBuf arg2 arg3 arg4 (View.readAt (Elt F) arg6.view (Rect.unit (s := S1x128x2048) ![0, 0, 0] S1x128x2048.size inb_S1x128x2048_S1x128x2048_0_0_0).toLoadRect (harg6.unread x4)) (View.readAt (Elt F) arg5.view (Rect.unit (s := S1x128x2048) ![0, 0, 0] S1x128x2048.size inb_S1x128x2048_S1x128x2048_0_0_0).toLoadRect (harg5.unread x3)) (harg2.unread x0) (harg3.unread x1) (harg4.unread x2) y := by
  unfold out0_A_5
  rw [View.read_writes_junk_eq_canon]
  refine View.canon_apply_of_pieces _ _ (fun p hp x => ?_) y (cover0_A_5 (F := F) c i arg2 harg2 arg3 harg3 arg4 harg4 arg5 harg5 arg6 harg6 arg7 harg7 arg8 harg8 x0 x1 x2 x3 x4 y)
  have hL : (kernelRun0_A (F := F) c i arg2 harg2 arg3 harg3 arg4 harg4 arg5 harg5 arg6 harg6 arg7 harg7 arg8 harg8 x0 x1 x2 x3 x4).1 = (pb_k0_t1 (F := F) Variants.none c none i arg2 harg2 arg3 harg3 arg4 harg4 arg5 harg5 arg6 harg6 arg7 harg7 arg8 harg8
      (View.readAt (Elt F) arg6.view (Rect.unit (s := S1x128x2048) ![0, 0, 0] S1x128x2048.size inb_S1x128x2048_S1x128x2048_0_0_0).toLoadRect (harg6.unread x4))
      (View.readAt (Elt F) arg5.view (Rect.unit (s := S1x128x2048) ![0, 0, 0] S1x128x2048.size inb_S1x128x2048_S1x128x2048_0_0_0).toLoadRect (harg5.unread x3))
      (harg2.unread x0) (harg3.unread x1) (harg4.unread x2) arg7.view.junk arg8.view.junk
      (Scf.trips k0_t1_loop.lb k0_t1_loop.ub k0_t1_loop.st)).1 := rfl
  rw [hL] at hp
  obtain ⟨k, rfl⟩ := (pb_mem (F := F) Variants.none c none i arg2 harg2 arg3 harg3 arg4 harg4 arg5 harg5 arg6 harg6 arg7 harg7 arg8 harg8
    (View.readAt (Elt F) arg6.view (Rect.unit (s := S1x128x2048) ![0, 0, 0] S1x128x2048.size inb_S1x128x2048_S1x128x2048_0_0_0).toLoadRect (harg6.unread x4)) (View.readAt (Elt F) arg5.view (Rect.unit (s := S1x128x2048) ![0, 0, 0] S1x128x2048.size inb_S1x128x2048_S1x128x2048_0_0_0).toLoadRect (harg5.unread x3)) (harg2.unread x0) (harg3.unread x1) (harg4.unread x2) arg7.view.junk arg8.view.junk
    (Scf.trips k0_t1_loop.lb k0_t1_loop.ub k0_t1_loop.st)).1 p hp
  exact outBlock_eq_buf arg2 arg3 arg4 _ _ _ _ _ k x

/-- After the body the probabilities buffer holds `probsBuf` of the point's blocks. -/
theorem out6_eq (c : Dev nD) (i : grid0.Coords) (arg2 : Memref sig .tc .vmem S4x1x128x64 .f32) (harg2 : arg2.IsWhole) (arg3 : Memref sig .tc .vmem S4x1x2048x64 .f32) (harg3 : arg3.IsWhole) (arg4 : Memref sig .tc .vmem S4x1x2048x64 .f32) (harg4 : arg4.IsWhole) (arg5 : Memref sig .tc .vmem S1x128x2048 .i32) (harg5 : arg5.IsWhole) (arg6 : Memref sig .tc .vmem S1x128x2048 .f32) (harg6 : arg6.IsWhole) (arg7 : Memref sig .tc .vmem S4x1x128x64 .f32) (harg7 : arg7.IsWhole) (arg8 : Memref sig .tc .vmem S4x1x128x2048 .f32) (harg8 : arg8.IsWhole) (x0 : Vec F S4x1x128x64 .f32) (x1 : Vec F S4x1x2048x64 .f32) (x2 : Vec F S4x1x2048x64 .f32) (x3 : Vec F S1x128x2048 .i32) (x4 : Vec F S1x128x2048 .f32) (y : S4x1x128x2048.Idx) :
    out0_A_6 (F := F) c i arg2 harg2 arg3 harg3 arg4 harg4 arg5 harg5 arg6 harg6 arg7 harg7 arg8 harg8 x0 x1 x2 x3 x4 y
      = probsBuf arg2 arg3 (View.readAt (Elt F) arg6.view (Rect.unit (s := S1x128x2048) ![0, 0, 0] S1x128x2048.size inb_S1x128x2048_S1x128x2048_0_0_0).toLoadRect (harg6.unread x4)) (View.readAt (Elt F) arg5.view (Rect.unit (s := S1x128x2048) ![0, 0, 0] S1x128x2048.size inb_S1x128x2048_S1x128x2048_0_0_0).toLoadRect (harg5.unread x3)) (harg2.unread x0) (harg3.unread x1) y := by
  unfold out0_A_6
  rw [View.read_writes_junk_eq_canon]
  refine View.canon_apply_of_pieces _ _ (fun p hp x => ?_) y (cover0_A_6 (F := F) c i arg2 harg2 arg3 harg3 arg4 harg4 arg5 harg5 arg6 harg6 arg7 harg7 arg8 harg8 x0 x1 x2 x3 x4 y)
  have hL : (kernelRun0_A (F := F) c i arg2 harg2 arg3 harg3 arg4 harg4 arg5 harg5 arg6 harg6 arg7 harg7 arg8 harg8 x0 x1 x2 x3 x4).2.1 = (pb_k0_t1 (F := F) Variants.none c none i arg2 harg2 arg3 harg3 arg4 harg4 arg5 harg5 arg6 harg6 arg7 harg7 arg8 harg8
      (View.readAt (Elt F) arg6.view (Rect.unit (s := S1x128x2048) ![0, 0, 0] S1x128x2048.size inb_S1x128x2048_S1x128x2048_0_0_0).toLoadRect (harg6.unread x4))
      (View.readAt (Elt F) arg5.view (Rect.unit (s := S1x128x2048) ![0, 0, 0] S1x128x2048.size inb_S1x128x2048_S1x128x2048_0_0_0).toLoadRect (harg5.unread x3))
      (harg2.unread x0) (harg3.unread x1) (harg4.unread x2) arg7.view.junk arg8.view.junk
      (Scf.trips k0_t1_loop.lb k0_t1_loop.ub k0_t1_loop.st)).2 := rfl
  rw [hL] at hp
  obtain ⟨k, rfl⟩ := (pb_mem (F := F) Variants.none c none i arg2 harg2 arg3 harg3 arg4 harg4 arg5 harg5 arg6 harg6 arg7 harg7 arg8 harg8
    (View.readAt (Elt F) arg6.view (Rect.unit (s := S1x128x2048) ![0, 0, 0] S1x128x2048.size inb_S1x128x2048_S1x128x2048_0_0_0).toLoadRect (harg6.unread x4)) (View.readAt (Elt F) arg5.view (Rect.unit (s := S1x128x2048) ![0, 0, 0] S1x128x2048.size inb_S1x128x2048_S1x128x2048_0_0_0).toLoadRect (harg5.unread x3)) (harg2.unread x0) (harg3.unread x1) (harg4.unread x2) arg7.view.junk arg8.view.junk
    (Scf.trips k0_t1_loop.lb k0_t1_loop.ub k0_t1_loop.st)).2 p hp
  exact probsBlock_eq_buf arg2 arg3 _ _ _ _ k x

end Cert.KernelIdeal.Body

end
-- ==== Proof.Attention.lean ====
/-
  Masked scaled dot-product attention on the extended reals, as ONE function of the five argument arrays.

  For batch b, head h, query row r and key column c the masked score is

      s(b,h,r,c) = -∞                                            where mask(h,r,c) = 0,
                   (Σ_d q(b,h,r,d) · k(b,h,c,d)) · 1/8 + bias(h,r,c)   elsewhere,

  a row's probabilities are its softmax, exp(s - max_c s) / Σ_c exp(s - max_c s), the maximum folded from -∞, and the
  output is Σ_c probs(b,h,r,c) · v(b,h,c,d). Both programs compute exactly these expressions (the kernel tile by tile,
  one batch entry at a time; the reference on the whole arrays), so no law of the extended reals beyond the two of
  Proof/Consts.lean and `max ⊥ x = x` is needed, and none that asks for finiteness.
-/
import Idealize.ShloMosaic.PureOps.Ideal
import Idealize.ShloMosaic.Lib.ValueIdx

noncomputable section

namespace Cert.Attention

open Idealize.ShloMosaic Idealize.ShloMosaic.ValueIdx

/-- The softmax of one row of extended reals at column `c`: the row is shifted by its maximum (folded from `⊥`),
    exponentiated, and divided by the sum of the exponentials. -/
def rowSoftmax {n : ℕ} (s : Fin n → EReal) (c : Fin n) : EReal :=
  Ideal.div (Ideal.exp (s c - (Finset.univ : Finset (Fin n)).fold max ⊥ s))
    (∑ c' : Fin n, Ideal.exp (s c' - (Finset.univ : Finset (Fin n)).fold max ⊥ s))

/-- One masked score from the query–key product `p`, the mask word `w` and the bias `β`: `-∞` where the word is
    zero, else the product scaled by the word of 0.125 plus the bias. -/
def maskedScore (p : EReal) (w : BitVec 32) (β : EReal) : EReal :=
  Scalar.select (IntOp.cmpi .eq w 0#32) (⊥ : EReal) (p * Ideal.ofBits .f32 0x3E000000#32 + β)

/-- The masked score of query row `r` against key column `c` in batch `b`, head `h`. -/
def score (q k : (⟨4, ![4, 8, 2048, 64]⟩ : Shape).Idx → EReal) (mask : (⟨3, ![8, 2048, 2048]⟩ : Shape).Idx → BitVec 32)
    (bias : (⟨3, ![8, 2048, 2048]⟩ : Shape).Idx → EReal) (b : Fin 4) (h : Fin 8) (r c : Fin 2048) : EReal :=
  maskedScore (∑ d : Fin 64, q (ix4 b h r d) * k (ix4 b h c d)) (mask (ix3 h r c)) (bias (ix3 h r c))

/-- The attention probabilities at (b, h, r, c): the softmax of row (b, h, r) of the masked scores. -/
def probsAt (q k : (⟨4, ![4, 8, 2048, 64]⟩ : Shape).Idx → EReal) (mask : (⟨3, ![8, 2048, 2048]⟩ : Shape).Idx → BitVec 32)
    (bias : (⟨3, ![8, 2048, 2048]⟩ : Shape).Idx → EReal) (b : Fin 4) (h : Fin 8) (r c : Fin 2048) : EReal :=
  rowSoftmax (fun c' => score q k mask bias b h r c') c

/-- The attended values at (b, h, r, d): the probabilities of row (b, h, r) against column d of the values. -/
def outputAt (q k v : (⟨4, ![4, 8, 2048, 64]⟩ : Shape).Idx → EReal) (mask : (⟨3, ![8, 2048, 2048]⟩ : Shape).Idx → BitVec 32)
    (bias : (⟨3, ![8, 2048, 2048]⟩ : Shape).Idx → EReal) (b : Fin 4) (h : Fin 8) (r : Fin 2048) (d : Fin 64) : EReal :=
  ∑ c : Fin 2048, probsAt q k mask bias b h r c * v (ix4 b h c d)

/-- The probabilities as an array of shape [4, 8, 2048, 2048]. -/
def probs (q k : (⟨4, ![4, 8, 2048, 64]⟩ : Shape).Idx → EReal) (mask : (⟨3, ![8, 2048, 2048]⟩ : Shape).Idx → BitVec 32)
    (bias : (⟨3, ![8, 2048, 2048]⟩ : Shape).Idx → EReal) : (⟨4, ![4, 8, 2048, 2048]⟩ : Shape).Idx → EReal :=
  fun i => probsAt q k mask bias (i 0) (i 1) (i 2) (i 3)

/-- The output as an array of shape [4, 8, 2048, 64]. -/
def output (q k v : (⟨4, ![4, 8, 2048, 64]⟩ : Shape).Idx → EReal) (mask : (⟨3, ![8, 2048, 2048]⟩ : Shape).Idx → BitVec 32)
    (bias : (⟨3, ![8, 2048, 2048]⟩ : Shape).Idx → EReal) : (⟨4, ![4, 8, 2048, 64]⟩ : Shape).Idx → EReal :=
  fun i => outputAt q k v mask bias (i 0) (i 1) (i 2) (i 3)

/-- Two rows that agree entry by entry have the same softmax. -/
theorem rowSoftmax_congr {n : ℕ} {s s' : Fin n → EReal} (h : ∀ c, s c = s' c) (c : Fin n) :
    rowSoftmax s c = rowSoftmax s' c := by
  rw [show s = s' from funext h]

end Cert.Attention

end
-- ==== Proof.Consts.lean ====
/-
  The float words the two programs spell, as the extended reals they denote, and the one law that joins the kernel's
  scaling to the reference's: the kernel multiplies a score by the word of 0.125, the reference divides it by the word
  of 8.0; 0.125 is exactly 1/8, and dividing an extended real by a nonzero real is multiplying it by the reciprocal,
  so the two are the same function on every extended real, the infinities included.
-/
import Idealize.ShloMosaic.PureOps.Ideal

noncomputable section

namespace Cert.Consts

open Idealize.ShloMosaic

/-- The word of `0.125` denotes the real `1/8`. -/
theorem ofBits_eighth : Ideal.ofBits .f32 0x3E000000#32 = ((1 / 8 : ℝ) : EReal) := by
  simp [Ideal.ofBits, Ideal.ieee, -EReal.coe_mul]; norm_num

/-- The word of `8.0` denotes the real `8`. -/
theorem ofBits_eight : Ideal.ofBits .f32 0x41000000#32 = ((8 : ℝ) : EReal) := by
  simp [Ideal.ofBits, Ideal.ieee, -EReal.coe_mul]; norm_num

/-- The word of `-inf` denotes the bottom of the extended reals. -/
theorem ofBits_neg_inf : Ideal.ofBits .f32 0xFF800000#32 = (⊥ : EReal) := by
  simp [Ideal.ofBits, Ideal.ieee]

/-- The word of `+0.0` denotes `0`. -/
theorem ofBits_zero : Ideal.ofBits .f32 0x00000000#32 = (0 : EReal) := by
  simp [Ideal.ofBits, Ideal.ieee]

/-- Scaling by the word of 0.125 is dividing by the word of 8.0, on every extended real. -/
theorem mul_eighth_eq_div_eight (x : EReal) :
    x * Ideal.ofBits .f32 0x3E000000#32 = Ideal.div x (Ideal.ofBits .f32 0x41000000#32) := by
  rw [ofBits_eighth, ofBits_eight, Ideal.div_coe (by norm_num : (8 : ℝ) ≠ 0)]

end Cert.Consts

end
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.LibUnitBlock.lean ====
/-
  A matrix carried as a [1, 1, a, b] array: the recast to [a, b] reads, at (p, q), the operand at (0, 0, p, q), and
  the recast of an [a, b] matrix to [1, 1, a, b] reads, at (u, v, p, q), the matrix at (p, q), whatever the two
  unit coordinates. General in the extents and the element type.
-/
import Idealize.ShloMosaic.Lib.ValueIdx
import Idealize.ShloMosaic.Lib.Pipeline.Value

namespace Cert.LibUnitBlock

open Idealize.ShloMosaic Idealize.ShloMosaic.ValueIdx

variable {α : Type}

/-- A [1, 1, a, b] array recast to [a, b] reads, at (p, q), the operand at (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] matrix recast to [1, 1, a, b] reads, at (u, v, p, q), the matrix at (p, q). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (p : Fin a) (q : Fin b) :
    shapeCast ⟨4, ![1, 1, a, b]⟩ x h (ix4 u v p q) = x (ix2 p q) :=
  shapeCast_apply x h _ _ (by
    have hu : u.val = 0 := by omega
    have hv : v.val = 0 := by omega
    rw [Shape.rowMajor_val_four, Shape.rowMajor_val_two]
    show p.val * b + q.val = ((u.val * 1 + v.val) * a + p.val) * b + q.val
    rw [hu, hv]
    simp only [Nat.zero_mul, Nat.zero_add])

end Cert.LibUnitBlock
-- ==== Proof.LibRowMax.lean ====
/-
  A maximum reduction of an [a, b] array along its last axis, at the exact values, read at row i: the fold of `max`
  from the accumulator's value over the row's entries. A general module: general in the extents and the format.
-/
import Idealize.ShloMosaic.Lib.ValueIdx
import Idealize.ShloMosaic.PureOps.Reduce
import Idealize.ShloMosaic.PureOps.Ideal.Laws

namespace Cert.LibRowMax

open Idealize.ShloMosaic Idealize.ShloMosaic.ValueIdx

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- A maximum reduction of `[a, b]` along its last axis, at the exact values, read at `i`: the fold of `max` from the
    accumulator's value over the row. -/
theorem multiReduction_max_last_ab {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => (Finset.univ : Finset (Fin b)).fold max (Ideal.ofBits φ acc) f)
      (funext fun k => congrArg src (lift_last_ab h i k)))

end Cert.LibRowMax
-- ==== Proof.KernelTile.lean ====
/-
  One batch entry's tile of the kernel, read at an index.

  A grid point's body works on 128 query rows against all 2048 keys, one batch entry per loop trip. From the trip's
  slices q (128×64), k (2048×64), v (2048×64) and the point's bias and mask-bit tiles (128×2048) it computes
      s(r,c) = -∞ where the bit is set, else (Σ_d q(r,d)·k(c,d)) · 1/8 + bias(r,c),
  the row softmax of s, and the product of that with v. Here each stored value is read at one entry: the probabilities'
  tile at (r, c) is the softmax of row r at column c, and the output tile at (r, d) is Σ_c probs(r,c)·v(c,d).
-/
import proofs.«160644_j20744692040185_2_alg».proof.Proof.Gen.KernelIdeal.Skeleton
import proofs.«160644_j20744692040185_2_alg».proof.Proof.Attention
import proofs.«160644_j20744692040185_2_alg».proof.Proof.Consts
import proofs.«160644_j20744692040185_2_alg».proof.Proof.LibKeepdims
import proofs.«160644_j20744692040185_2_alg».proof.Proof.LibUnitBlock
import proofs.«160644_j20744692040185_2_alg».proof.Proof.LibRowMax
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Tile

open Cert.KernelIdeal Cert.KernelIdeal.Gen Idealize.ShloMosaic Idealize.ShloMosaic.ValueIdx
open Cert.Attention

/-! ## The softmax of a tile -/

/-- A tile's row maxima (folded from the word of -inf), as a column broadcast back across the lanes. -/
def rowMaxB (s : FVec Ideal S128x2048 .f32) : FVec Ideal S128x2048 .f32 :=
  broadcastTo S128x2048 (shapeCast S128x1 (multiReduction (F := Ideal) .maximumf [1] S128 s 0xFF800000#32
    reduces_S128x2048_S128 (.inl rfl) rfl) shapeCasts_S128_S128x1) broadcasts_S128x1_S128x2048

/-- A tile's row sums, as a column broadcast back across the lanes. -/
def rowSumB (e : FVec Ideal S128x2048 .f32) : FVec Ideal S128x2048 .f32 :=
  broadcastTo S128x2048 (shapeCast S128x1 (multiReduction (F := Ideal) .add [1] S128 e 0x00000000#32
    reduces_S128x2048_S128 (.inl rfl) rfl) shapeCasts_S128_S128x1) broadcasts_S128x1_S128x2048

/-- The broadcast row maximum at (r, c) is the fold of `max` from `⊥` over row r. -/
theorem rowMaxB_apply (s : FVec Ideal S128x2048 .f32) (r : Fin 128) (c : Fin 2048) :
    rowMaxB s (ix2 r c) = (Finset.univ : Finset (Fin 2048)).fold max ⊥ (fun c' => s (ix2 r c')) := by
  unfold rowMaxB
  refine (Cert.LibKeepdims.broadcastTo_a1_ab_apply _ broadcasts_S128x1_S128x2048 r c).trans ?_
  refine (Cert.LibKeepdims.shapeCast_a_a1_apply _ shapeCasts_S128_S128x1 r (0 : Fin 1)).trans ?_
  refine (Cert.LibRowMax.multiReduction_max_last_ab s 0xFF800000#32 reduces_S128x2048_S128 (.inl rfl) rfl r).trans ?_
  rw [Cert.Consts.ofBits_neg_inf]

/-- The broadcast row sum at (r, c) is the sum of row r. -/
theorem rowSumB_apply (e : FVec Ideal S128x2048 .f32) (r : Fin 128) (c : Fin 2048) :
    rowSumB e (ix2 r c) = ∑ c' : Fin 2048, e (ix2 r c') := by
  unfold rowSumB
  refine (Cert.LibKeepdims.broadcastTo_a1_ab_apply _ broadcasts_S128x1_S128x2048 r c).trans ?_
  refine (Cert.LibKeepdims.shapeCast_a_a1_apply _ shapeCasts_S128_S128x1 r (0 : Fin 1)).trans ?_
  exact Cert.LibKeepdims.multiReduction_add_last_ab e 0x00000000#32 reduces_S128x2048_S128 (.inl rfl) rfl r

/-- A tile's softmax: shifted by the row maxima, exponentiated, divided by the row sums. -/
def softmaxTile (s : FVec Ideal S128x2048 .f32) : FVec Ideal S128x2048 .f32 :=
  divf (exp (subf s (rowMaxB s))) (rowSumB (exp (subf s (rowMaxB s))))

/-- The tile's softmax at (r, c) is the softmax of row r at column c. -/
theorem softmaxTile_apply (s : FVec Ideal S128x2048 .f32) (r : Fin 128) (c : Fin 2048) :
    softmaxTile s (ix2 r c) = rowSoftmax (fun c' => s (ix2 r c')) c := by
  unfold softmaxTile rowSoftmax
  rw [divf_apply, rowSumB_apply]
  have hexp : ∀ c' : Fin 2048, exp (subf s (rowMaxB s)) (ix2 r c')
      = Ideal.exp (s (ix2 r c') - (Finset.univ : Finset (Fin 2048)).fold max ⊥ (fun c'' => s (ix2 r c''))) := fun c' => by
    show Ideal.exp (s (ix2 r c') - rowMaxB s (ix2 r c')) = _
    rw [rowMaxB_apply]
  simp only [hexp]

/-! ## The two products -/

/-- The query–key product reads its left operand's row at the output's row, -/
theorem qk_lhs0 (i : S128x2048.Idx) (q : dot_S128x64_S2048x64_S128x2048_1_1_0_0_n_n.contr.Idx) : (dot_S128x64_S2048x64_S128x2048_1_1_0_0_n_n.lhsIdx i q 0).val = (i 0).val := by
  unfold DotDims.lhsIdx
  rw [dif_neg (show ¬(0 : Fin S128x64.rank) ∈ dot_S128x64_S2048x64_S128x2048_1_1_0_0_n_n.lhsBatch by decide), dif_pos (show (0 : Fin S128x64.rank) ∈ dot_S128x64_S2048x64_S128x2048_1_1_0_0_n_n.lhsNonContracting by decide)]
  rfl
/-- and its right operand's row at the output's column. -/
theorem qk_rhs0 (i : S128x2048.Idx) (q : dot_S128x64_S2048x64_S128x2048_1_1_0_0_n_n.contr.Idx) : (dot_S128x64_S2048x64_S128x2048_1_1_0_0_n_n.rhsIdx i q 0).val = (i 1).val := by
  unfold DotDims.rhsIdx
  rw [dif_neg (show ¬(0 : Fin S2048x64.rank) ∈ dot_S128x64_S2048x64_S128x2048_1_1_0_0_n_n.rhsBatch by decide), dif_pos (show (0 : Fin S2048x64.rank) ∈ dot_S128x64_S2048x64_S128x2048_1_1_0_0_n_n.rhsNonContracting by decide)]
  rfl
/-- The probabilities–values product reads its left operand's row at the output's row, -/
theorem pv_lhs0 (i : S128x64.Idx) (q : dot_S128x2048_S2048x64_S128x64_1_0_0_1_n_n.contr.Idx) : (dot_S128x2048_S2048x64_S128x64_1_0_0_1_n_n.lhsIdx i q 0).val = (i 0).val := by
  unfold DotDims.lhsIdx
  rw [dif_neg (show ¬(0 : Fin S128x2048.rank) ∈ dot_S128x2048_S2048x64_S128x64_1_0_0_1_n_n.lhsBatch by decide), dif_pos (show (0 : Fin S128x2048.rank) ∈ dot_S128x2048_S2048x64_S128x64_1_0_0_1_n_n.lhsNonContracting by decide)]
  rfl
/-- and its right operand's column at the output's column. -/
theorem pv_rhs1 (i : S128x64.Idx) (q : dot_S128x2048_S2048x64_S128x64_1_0_0_1_n_n.contr.Idx) : (dot_S128x2048_S2048x64_S128x64_1_0_0_1_n_n.rhsIdx i q 1).val = (i 1).val := by
  unfold DotDims.rhsIdx
  rw [dif_neg (show ¬(1 : Fin S2048x64.rank) ∈ dot_S128x2048_S2048x64_S128x64_1_0_0_1_n_n.rhsBatch by decide), dif_pos (show (1 : Fin S2048x64.rank) ∈ dot_S128x2048_S2048x64_S128x64_1_0_0_1_n_n.rhsNonContracting by decide)]
  rfl

/-- The query–key product of a trip's slices at (r, c): the contraction over the 64 features. -/
theorem qk_apply (v8 : Vec Ideal S1x1x128x64 .f32) (v12 : Vec Ideal S1x1x2048x64 .f32) (r : Fin 128) (c : Fin 2048) :
    matmul (F := Ideal) dot_S128x64_S2048x64_S128x2048_1_1_0_0_n_n none
        (truncf .bf16 (shapeCast S128x64 v8 shapeCasts_S1x1x128x64_S128x64) bitsLt_bf16_f32)
        (truncf .bf16 (shapeCast S2048x64 v12 shapeCasts_S1x1x2048x64_S2048x64) bitsLt_bf16_f32)
        (constant S128x2048 .f32 0x00000000#32) (ix2 r c)
      = ∑ d : Fin 64, v8 (ix4 (0 : Fin 1) (0 : Fin 1) r d) * v12 (ix4 (0 : Fin 1) (0 : Fin 1) c d) := by
  refine (Ideal.matmul_constant_zero_apply dot_S128x64_S2048x64_S128x2048_1_1_0_0_n_n none _ _ (ix2 r c)).trans ?_
  rw [← Equiv.sum_comp (contrEquiv1 dot_S128x64_S2048x64_S128x2048_1_1_0_0_n_n 64 rfl rfl).symm]
  refine Finset.sum_congr rfl fun k _ => ?_
  have hk := contrEquiv1_symm_val dot_S128x64_S2048x64_S128x2048_1_1_0_0_n_n 64 rfl rfl k
  have el : dot_S128x64_S2048x64_S128x2048_1_1_0_0_n_n.lhsIdx (ix2 r c) ((contrEquiv1 dot_S128x64_S2048x64_S128x2048_1_1_0_0_n_n 64 rfl rfl).symm k) = ix2 r k := funext fun a => Fin.ext (by
    match a with
    | ⟨0, _⟩ => exact qk_lhs0 _ _
    | ⟨1, _⟩ => exact (dot_S128x64_S2048x64_S128x2048_1_1_0_0_n_n.lhsIdx_val_of_single rfl (ix2 r c) _).trans hk)
  have er : dot_S128x64_S2048x64_S128x2048_1_1_0_0_n_n.rhsIdx (ix2 r c) ((contrEquiv1 dot_S128x64_S2048x64_S128x2048_1_1_0_0_n_n 64 rfl rfl).symm k) = ix2 c k := funext fun a => Fin.ext (by
    match a with
    | ⟨0, _⟩ => exact qk_rhs0 _ _
    | ⟨1, _⟩ => exact (dot_S128x64_S2048x64_S128x2048_1_1_0_0_n_n.rhsIdx_val_of_single rfl (ix2 r c) _).trans hk)
  rw [el, er, truncf_apply, truncf_apply, Cert.LibUnitBlock.shapeCast_11ab_ab_apply, Cert.LibUnitBlock.shapeCast_11ab_ab_apply]

/-- The probabilities–values product of a trip at (r, d): the contraction over the 2048 keys. -/
theorem pv_apply (p : FVec Ideal S128x2048 .f32) (v16 : Vec Ideal S1x1x2048x64 .f32) (r : Fin 128) (d : Fin 64) :
    matmul (F := Ideal) dot_S128x2048_S2048x64_S128x64_1_0_0_1_n_n none
        (truncf .bf16 p bitsLt_bf16_f32)
        (truncf .bf16 (shapeCast S2048x64 v16 shapeCasts_S1x1x2048x64_S2048x64) bitsLt_bf16_f32)
        (constant S128x64 .f32 0x00000000#32) (ix2 r d)
      = ∑ c : Fin 2048, p (ix2 r c) * v16 (ix4 (0 : Fin 1) (0 : Fin 1) c d) := by
  refine (Ideal.matmul_constant_zero_apply dot_S128x2048_S2048x64_S128x64_1_0_0_1_n_n none _ _ (ix2 r d)).trans ?_
  rw [← Equiv.sum_comp (contrEquiv1 dot_S128x2048_S2048x64_S128x64_1_0_0_1_n_n 2048 rfl rfl).symm]
  refine Finset.sum_congr rfl fun k _ => ?_
  have hk := contrEquiv1_symm_val dot_S128x2048_S2048x64_S128x64_1_0_0_1_n_n 2048 rfl rfl k
  have el : dot_S128x2048_S2048x64_S128x64_1_0_0_1_n_n.lhsIdx (ix2 r d) ((contrEquiv1 dot_S128x2048_S2048x64_S128x64_1_0_0_1_n_n 2048 rfl rfl).symm k) = ix2 r k := funext fun a => Fin.ext (by
    match a with
    | ⟨0, _⟩ => exact pv_lhs0 _ _
    | ⟨1, _⟩ => exact (dot_S128x2048_S2048x64_S128x64_1_0_0_1_n_n.lhsIdx_val_of_single rfl (ix2 r d) _).trans hk)
  have er : dot_S128x2048_S2048x64_S128x64_1_0_0_1_n_n.rhsIdx (ix2 r d) ((contrEquiv1 dot_S128x2048_S2048x64_S128x64_1_0_0_1_n_n 2048 rfl rfl).symm k) = ix2 k d := funext fun a => Fin.ext (by
    match a with
    | ⟨0, _⟩ => exact (dot_S128x2048_S2048x64_S128x64_1_0_0_1_n_n.rhsIdx_val_of_single rfl (ix2 r d) _).trans hk
    | ⟨1, _⟩ => exact pv_rhs1 _ _)
  rw [el, er, truncf_apply, truncf_apply, Cert.LibUnitBlock.shapeCast_11ab_ab_apply]

/-! ## The payloads at an index -/

variable (v1 : FVec Ideal S128x2048 .f32) (v5 : IVec S128x2048 1) (v8 : Vec Ideal S1x1x128x64 .f32)
  (v12 v16 : Vec Ideal S1x1x2048x64 .f32)

/-- The tile of masked scores the body forms from a trip's slices. -/
def maskedTile : FVec Ideal S128x2048 .f32 :=
  select v5 (broadcast S128x2048 (Named.named (F := Ideal) κ "neg_big" (φ := .f32) 0xFF333332#32))
    (addf (mulf (matmul (F := Ideal) dot_S128x64_S2048x64_S128x2048_1_1_0_0_n_n none
        (truncf .bf16 (shapeCast S128x64 v8 shapeCasts_S1x1x128x64_S128x64) bitsLt_bf16_f32)
        (truncf .bf16 (shapeCast S2048x64 v12 shapeCasts_S1x1x2048x64_S2048x64) bitsLt_bf16_f32)
        (constant S128x2048 .f32 0x00000000#32))
      (broadcast S128x2048 (Scalar.ofBits (F := Ideal) .f32 0x3E000000#32))) v1)

/-- The named fill is `-∞` at the exact values, by the certificate's table. -/
theorem neg_big : Named.named (F := Ideal) κ "neg_big" (φ := .f32) 0xFF333332#32 = (⊥ : EReal) :=
  IdealRules.named_const.ideal_named_scalar _ _ _ _ rfl

/-- A masked score of the tile at (r, c): `-∞` where the mask bit is set, else the scaled product plus the bias. -/
theorem maskedTile_apply (r : Fin 128) (c : Fin 2048) :
    maskedTile v1 v5 v8 v12 (ix2 r c)
      = Scalar.select (v5 (ix2 r c)) (⊥ : EReal)
          ((∑ d : Fin 64, v8 (ix4 (0 : Fin 1) (0 : Fin 1) r d) * v12 (ix4 (0 : Fin 1) (0 : Fin 1) c d))
            * Ideal.ofBits .f32 0x3E000000#32 + v1 (ix2 r c)) := by
  unfold maskedTile
  rw [select_apply, broadcast_apply, addf_apply, mulf_apply, broadcast_apply, qk_apply, neg_big]
  rfl

/-- The body's probabilities payload is the softmax of the masked tile. -/
theorem pay3_eq : k0_pay3 (F := Ideal) v1 v5 v8 v12 = softmaxTile (maskedTile v1 v5 v8 v12) := rfl

/-- The probabilities payload at (r, c): the softmax of row r of the masked scores, at column c. -/
theorem pay3_apply (r : Fin 128) (c : Fin 2048) :
    k0_pay3 (F := Ideal) v1 v5 v8 v12 (ix2 r c)
      = rowSoftmax (fun c' => Scalar.select (v5 (ix2 r c')) (⊥ : EReal)
          ((∑ d : Fin 64, v8 (ix4 (0 : Fin 1) (0 : Fin 1) r d) * v12 (ix4 (0 : Fin 1) (0 : Fin 1) c' d))
            * Ideal.ofBits .f32 0x3E000000#32 + v1 (ix2 r c'))) c := by
  rw [pay3_eq, softmaxTile_apply]
  exact rowSoftmax_congr (fun c' => maskedTile_apply v1 v5 v8 v12 r c') c

/-- The stored probabilities block at (0, 0, r, c) is the probabilities payload at (r, c). -/
theorem pay4_apply (u w : Fin 1) (r : Fin 128) (c : Fin 2048) :
    k0_pay4 (F := Ideal) v1 v5 v8 v12 (ix4 u w r c) = k0_pay3 (F := Ideal) v1 v5 v8 v12 (ix2 r c) := by
  unfold k0_pay4
  exact Cert.LibUnitBlock.shapeCast_ab_11ab_apply _ shapeCasts_S128x2048_S1x1x128x2048 u w r c

/-- The stored output block at (0, 0, r, d): the row's probabilities against column d of the trip's values. -/
theorem pay5_apply (u w : Fin 1) (r : Fin 128) (d : Fin 64) :
    k0_pay5 (F := Ideal) v1 v5 v8 v12 v16 (ix4 u w r d)
      = ∑ c : Fin 2048, k0_pay3 (F := Ideal) v1 v5 v8 v12 (ix2 r c) * v16 (ix4 (0 : Fin 1) (0 : Fin 1) c d) := by
  unfold k0_pay5
  refine (Cert.LibUnitBlock.shapeCast_ab_11ab_apply _ shapeCasts_S128x64_S1x1x128x64 u w r d).trans ?_
  exact pv_apply (k0_pay3 (F := Ideal) v1 v5 v8 v12) v16 r d

end Cert.KernelIdeal.Tile

end
-- ==== Proof.KernelBodyIdeal.lean ====
/-
  The two output buffers of one grid point, at the exact values, in terms of the point's five input blocks.

  With x0, x1, x2 the point's q, k, v blocks ([4, 1, ·, 64]), x3 its mask tile and x4 its bias tile ([1, 128, 2048]):
  the probabilities buffer holds, at (b, u, r, c), the softmax of row r of the masked scores of batch entry b,
      s(r, c') = -∞ where x3(0, r, c') = 0, else (Σ_d x0(b,0,r,d)·x1(b,0,c',d)) · 1/8 + x4(0, r, c'),
  at column c; and the output buffer holds, at (b, u, r, d), Σ_c of those probabilities times x2(b, 0, c, d).
-/
import proofs.«160644_j20744692040185_2_alg».proof.Proof.KernelBody
import proofs.«160644_j20744692040185_2_alg».proof.Proof.KernelTile
import Idealize.ShloMosaic.Lib.ValueLayout

set_option maxRecDepth 16384

noncomputable section

namespace Cert.KernelIdeal.BodyIdeal

open Cert.KernelIdeal Cert.KernelIdeal.Gen Cert.KernelIdeal.Body Cert.KernelIdeal.Tile Cert.Attention
open Idealize.ShloMosaic Idealize.ShloMosaic.TcCoe Idealize.ShloMosaic.ValueIdx

/-! ## Loads through the staging memrefs -/

/-- The whole-tile load of a [1, 128, 2048] staging memref that holds `x` reads `x`. -/
theorem tile_read {e : EltTy} (arg : Memref sig .tc .vmem S1x128x2048 e) (harg : arg.IsWhole) (x : Vec Ideal S1x128x2048 e) :
    View.readAt (Elt Ideal) arg.view (Rect.unit (s := S1x128x2048) ![0, 0, 0] S1x128x2048.size inb_S1x128x2048_S1x128x2048_0_0_0).toLoadRect (harg.unread x) = x := by
  funext j
  rw [View.readAt_apply, harg.read_unread]
  refine congrArg x (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- Trip k's slice of a [4, 1, 128, 64] block: at (u, w, r, d), the block at (k, 0, r, d). -/
theorem q_slice (arg2 : Memref sig .tc .vmem S4x1x128x64 .f32) (harg2 : arg2.IsWhole) (x0 : Vec Ideal S4x1x128x64 .f32)
    (k : Fin k0_t1_loop.trips) (b : Fin 4) (hk : k.val = b.val) (u w : Fin 1) (r : Fin 128) (d : Fin 64) :
    View.readAt (Elt Ideal) arg2.view (Rect.unit (s := S4x1x128x64) (k0_off1 k) S1x1x128x64.size (k0_off1_inb k)).toLoadRect (harg2.unread x0) (ix4 u w r d) = x0 (ix4 b (0 : Fin 1) r d) := by
  rw [View.readAt_apply, harg2.read_unread]
  refine congrArg x0 (funext fun a => Fin.ext ?_)
  have hu := u.isLt
  have hw := w.isLt
  match a with
  | ⟨0, _⟩ => have e : k0_off1 k 0 = k.val := congrFun (k0_off1_eq k) 0; show k0_off1 k 0 + 1 * u.val = b.val; omega
  | ⟨1, _⟩ => have e : k0_off1 k 1 = 0 := congrFun (k0_off1_eq k) 1; show k0_off1 k 1 + 1 * w.val = 0; omega
  | ⟨2, _⟩ => have e : k0_off1 k 2 = 0 := congrFun (k0_off1_eq k) 2; show k0_off1 k 2 + 1 * r.val = r.val; omega
  | ⟨3, _⟩ => have e : k0_off1 k 3 = 0 := congrFun (k0_off1_eq k) 3; show k0_off1 k 3 + 1 * d.val = d.val; omega

/-- Trip k's slice of a [4, 1, 2048, 64] block: at (u, w, c, d), the block at (k, 0, c, d). -/
theorem kv_slice (arg3 : Memref sig .tc .vmem S4x1x2048x64 .f32) (harg3 : arg3.IsWhole) (x1 : Vec Ideal S4x1x2048x64 .f32)
    (k : Fin k0_t1_loop.trips) (b : Fin 4) (hk : k.val = b.val) (u w : Fin 1) (c : Fin 2048) (d : Fin 64) :
    View.readAt (Elt Ideal) arg3.view (Rect.unit (s := S4x1x2048x64) (k0_off2 k) S1x1x2048x64.size (k0_off2_inb k)).toLoadRect (harg3.unread x1) (ix4 u w c d) = x1 (ix4 b (0 : Fin 1) c d) := by
  rw [View.readAt_apply, harg3.read_unread]
  refine congrArg x1 (funext fun a => Fin.ext ?_)
  have hu := u.isLt
  have hw := w.isLt
  match a with
  | ⟨0, _⟩ => have e : k0_off2 k 0 = k.val := congrFun (k0_off2_eq k) 0; show k0_off2 k 0 + 1 * u.val = b.val; omega
  | ⟨1, _⟩ => have e : k0_off2 k 1 = 0 := congrFun (k0_off2_eq k) 1; show k0_off2 k 1 + 1 * w.val = 0; omega
  | ⟨2, _⟩ => have e : k0_off2 k 2 = 0 := congrFun (k0_off2_eq k) 2; show k0_off2 k 2 + 1 * c.val = c.val; omega
  | ⟨3, _⟩ => have e : k0_off2 k 3 = 0 := congrFun (k0_off2_eq k) 3; show k0_off2 k 3 + 1 * d.val = d.val; omega

/-! ## The bias and mask-bit tiles at an index -/

/-- The bias tile at (r, c) is the bias block at (0, r, c). -/
theorem pay1_apply (x4 : Vec Ideal S1x128x2048 .f32) (r : Fin 128) (c : Fin 2048) :
    k0_pay1 (F := Ideal) x4 (ix2 r c) = x4 (ix3 (0 : Fin 1) r c) := by
  unfold k0_pay1
  exact shapeCast_1ab_ab_apply x4 shapeCasts_S1x128x2048_S128x2048 r c

/-- The mask-bit tile at (r, c) compares the mask block at (0, r, c) with zero. -/
theorem pay2_apply (x3 : Vec Ideal S1x128x2048 .i32) (r : Fin 128) (c : Fin 2048) :
    k0_pay2 (F := Ideal) x3 (ix2 r c) = IntOp.cmpi .eq (x3 (ix3 (0 : Fin 1) r c)) 0#32 := by
  unfold k0_pay2
  show IntOp.cmpi .eq (shapeCast S128x2048 x3 shapeCasts_S1x128x2048_S128x2048 (ix2 r c)) 0#32 = _
  rw [shapeCast_1ab_ab_apply]

/-! ## The two buffers -/

/-- Row r of batch entry b's masked scores, from the point's blocks. -/
def scoreRow (x0 : Vec Ideal S4x1x128x64 .f32) (x1 : Vec Ideal S4x1x2048x64 .f32) (x3 : Vec Ideal S1x128x2048 .i32)
    (x4 : Vec Ideal S1x128x2048 .f32) (b : Fin 4) (r : Fin 128) : Fin 2048 → EReal := fun c' =>
  maskedScore (∑ d : Fin 64, x0 (ix4 b (0 : Fin 1) r d) * x1 (ix4 b (0 : Fin 1) c' d)) (x3 (ix3 (0 : Fin 1) r c')) (x4 (ix3 (0 : Fin 1) r c'))

variable (arg2 : Memref sig .tc .vmem S4x1x128x64 .f32) (harg2 : arg2.IsWhole)
  (arg3 : Memref sig .tc .vmem S4x1x2048x64 .f32) (harg3 : arg3.IsWhole)
  (arg4 : Memref sig .tc .vmem S4x1x2048x64 .f32) (harg4 : arg4.IsWhole)
  (arg5 : Memref sig .tc .vmem S1x128x2048 .i32) (harg5 : arg5.IsWhole)
  (arg6 : Memref sig .tc .vmem S1x128x2048 .f32) (harg6 : arg6.IsWhole)
  (x0 : Vec Ideal S4x1x128x64 .f32) (x1 x2 : Vec Ideal S4x1x2048x64 .f32) (x3 : Vec Ideal S1x128x2048 .i32)
  (x4 : Vec Ideal S1x128x2048 .f32)

/-- Trip b's probabilities payload at (r, c): the softmax of row r of batch entry b's masked scores. -/
theorem trip_probs (k : Fin k0_t1_loop.trips) (b : Fin 4) (hk : k.val = b.val) (r : Fin 128) (c : Fin 2048) :
    k0_pay3 (F := Ideal) (k0_pay1 x4) (k0_pay2 x3)
        (View.readAt (Elt Ideal) arg2.view (Rect.unit (s := S4x1x128x64) (k0_off1 k) S1x1x128x64.size (k0_off1_inb k)).toLoadRect (harg2.unread x0))
        (View.readAt (Elt Ideal) arg3.view (Rect.unit (s := S4x1x2048x64) (k0_off2 k) S1x1x2048x64.size (k0_off2_inb k)).toLoadRect (harg3.unread x1)) (ix2 r c)
      = rowSoftmax (scoreRow x0 x1 x3 x4 b r) c := by
  rw [pay3_apply]
  refine rowSoftmax_congr (fun c' => ?_) c
  unfold scoreRow maskedScore
  rw [pay2_apply, pay1_apply]
  simp only [q_slice arg2 harg2 x0 k b hk, kv_slice arg3 harg3 x1 k b hk]

/-- The probabilities buffer at (b, u, r, c). -/
theorem probsBuf_apply (b : Fin 4) (u : Fin 1) (r : Fin 128) (c : Fin 2048) :
    probsBuf (F := Ideal) arg2 arg3 (View.readAt (Elt Ideal) arg6.view (Rect.unit (s := S1x128x2048) ![0, 0, 0] S1x128x2048.size inb_S1x128x2048_S1x128x2048_0_0_0).toLoadRect (harg6.unread x4)) (View.readAt (Elt Ideal) arg5.view (Rect.unit (s := S1x128x2048) ![0, 0, 0] S1x128x2048.size inb_S1x128x2048_S1x128x2048_0_0_0).toLoadRect (harg5.unread x3)) (harg2.unread x0) (harg3.unread x1) (ix4 b u r c)
      = rowSoftmax (scoreRow x0 x1 x3 x4 b r) c := by
  rw [tile_read arg6 harg6 x4, tile_read arg5 harg5 x3]
  show k0_pay4 (F := Ideal) (k0_pay1 x4) (k0_pay2 x3) _ _ (ix4 (0 : Fin 1) (0 : Fin 1) r c) = _
  rw [pay4_apply]
  exact trip_probs arg2 harg2 arg3 harg3 x0 x1 x3 x4 ⟨b.val, lt_trips b⟩ b rfl r c

/-- The output buffer at (b, u, r, d). -/
theorem outBuf_apply (b : Fin 4) (u : Fin 1) (r : Fin 128) (d : Fin 64) :
    outBuf (F := Ideal) arg2 arg3 arg4 (View.readAt (Elt Ideal) arg6.view (Rect.unit (s := S1x128x2048) ![0, 0, 0] S1x128x2048.size inb_S1x128x2048_S1x128x2048_0_0_0).toLoadRect (harg6.unread x4)) (View.readAt (Elt Ideal) arg5.view (Rect.unit (s := S1x128x2048) ![0, 0, 0] S1x128x2048.size inb_S1x128x2048_S1x128x2048_0_0_0).toLoadRect (harg5.unread x3)) (harg2.unread x0) (harg3.unread x1) (harg4.unread x2) (ix4 b u r d)
      = ∑ c : Fin 2048, rowSoftmax (scoreRow x0 x1 x3 x4 b r) c * x2 (ix4 b (0 : Fin 1) c d) := by
  rw [tile_read arg6 harg6 x4, tile_read arg5 harg5 x3]
  show k0_pay5 (F := Ideal) (k0_pay1 x4) (k0_pay2 x3) _ _ _ (ix4 (0 : Fin 1) (0 : Fin 1) r d) = _
  rw [pay5_apply]
  refine Finset.sum_congr rfl fun c _ => ?_
  rw [trip_probs arg2 harg2 arg3 harg3 x0 x1 x3 x4 ⟨b.val, lt_trips b⟩ b rfl r c,
    kv_slice arg4 harg4 x2 ⟨b.val, lt_trips b⟩ b rfl (0 : Fin 1) (0 : Fin 1) c d]

end Cert.KernelIdeal.BodyIdeal

end
-- ==== Proof.KernelArrays.lean ====
/-
  From blocks to arrays: after the kernel's run the two result arrays are the attention specification's functions of the
  argument arrays.

  The grid is (head h, query tile qi), 8 × 16 points. At a point the kernel stages rows [128·qi, 128·qi + 128) of head h
  of q, of the mask and of the bias, all of head h of k and v, every batch entry at once, and writes back the same rows
  of the two results. So the block a point writes back (the body's two buffers, read in Proof/KernelBodyIdeal.lean) is
  that block of the specification's array: each staged block's entry is the argument array's entry at the block's
  offset, the decided relations between the index maps say the offsets agree, and the row of scores a row of the tile
  sees is the whole row of the array (a tile holds all 2048 key columns). The blocks tile the arrays, so the arrays end
  holding the specification's functions everywhere.
-/
import proofs.«160644_j20744692040185_2_alg».proof.Proof.KernelBodyIdeal

set_option maxRecDepth 16384

noncomputable section

namespace Cert.KernelIdeal.Arrays

open Cert.KernelIdeal Cert.KernelIdeal.Gen Cert.KernelIdeal.GenP Cert.KernelIdeal.Body Cert.KernelIdeal.BodyIdeal
open Cert.Attention
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The index maps, decided over the grid -/

/-- At every point the two result windows and the q window sit at block (0, h, qi, 0), the k and v windows at
    (0, h, 0, 0), the mask and bias windows at (h, qi, 0); h ≤ 7, qi ≤ 15. -/
theorem idx_facts : ∀ t : Fin cfg0.N,
    win0_6.index t (0 : Fin 4) = 0 ∧ win0_6.index t (3 : Fin 4) = 0
    ∧ win0_6.index t (1 : Fin 4) ≤ 7 ∧ win0_6.index t (2 : Fin 4) ≤ 15
    ∧ win0_5.index t (0 : Fin 4) = 0 ∧ win0_5.index t (1 : Fin 4) = win0_6.index t (1 : Fin 4)
    ∧ win0_5.index t (2 : Fin 4) = win0_6.index t (2 : Fin 4) ∧ win0_5.index t (3 : Fin 4) = 0
    ∧ win0_0.index t (0 : Fin 4) = 0 ∧ win0_0.index t (1 : Fin 4) = win0_6.index t (1 : Fin 4)
    ∧ win0_0.index t (2 : Fin 4) = win0_6.index t (2 : Fin 4) ∧ win0_0.index t (3 : Fin 4) = 0
    ∧ win0_1.index t (0 : Fin 4) = 0 ∧ win0_1.index t (1 : Fin 4) = win0_6.index t (1 : Fin 4)
    ∧ win0_1.index t (2 : Fin 4) = 0 ∧ win0_1.index t (3 : Fin 4) = 0
    ∧ win0_2.index t (0 : Fin 4) = 0 ∧ win0_2.index t (1 : Fin 4) = win0_6.index t (1 : Fin 4)
    ∧ win0_2.index t (2 : Fin 4) = 0 ∧ win0_2.index t (3 : Fin 4) = 0
    ∧ win0_3.index t (0 : Fin 3) = win0_6.index t (1 : Fin 4) ∧ win0_3.index t (1 : Fin 3) = win0_6.index t (2 : Fin 4)
    ∧ win0_3.index t (2 : Fin 3) = 0
    ∧ win0_4.index t (0 : Fin 3) = win0_6.index t (1 : Fin 4) ∧ win0_4.index t (1 : Fin 3) = win0_6.index t (2 : Fin 4)
    ∧ win0_4.index t (2 : Fin 3) = 0 :=
  (by decide +kernel : ∀ t : Fin grid0.N, _)

/-- Every (head, query tile) is some point's. -/
theorem idx_onto : ∀ (h : Fin 8) (qi : Fin 16), ∃ t : Fin cfg0.N,
    win0_6.index t = ![0, h.val, qi.val, 0] ∧ win0_5.index t = ![0, h.val, qi.val, 0] :=
  (by decide +kernel : ∀ (h : Fin 8) (qi : Fin 16), ∃ t : Fin grid0.N,
    win0_6.index t = ![0, h.val, qi.val, 0] ∧ win0_5.index t = ![0, h.val, qi.val, 0])

/-! ## The staged blocks, entry by entry -/

/-- The q block at (b, u, r, d) is the q array at (b, h, 128·qi + r, d). -/
theorem q_block (c : Dev nD) (t : Fin cfg0.N) (b : Fin 4) (u : Fin 1) (r : Fin 128) (d : Fin 64) (I : S4x8x2048x64.Idx)
    (h0 : (I 0).val = b.val) (h1 : (I 1).val = win0_6.index t (1 : Fin 4))
    (h2 : (I 2).val = win0_6.index t (2 : Fin 4) * 128 + r.val) (h3 : (I 3).val = d.val) :
    iblk m c 0 t (ix4 b u r d) = V m c main_arg0 I := by
  obtain ⟨-, -, -, -, -, -, -, -, e0, e1, e2, e3, -⟩ := idx_facts t
  have hu := u.isLt
  show V m c main_arg0 (((cfg0.win 0).blk t).view.emb (ix4 b u r d)) = _
  refine congrArg _ (funext fun a => Fin.ext ?_)
  match a with
  | ⟨0, _⟩ => show win0_0.index t (0 : Fin 4) * 4 + 1 * b.val = (I 0).val; omega
  | ⟨1, _⟩ => show win0_0.index t (1 : Fin 4) * 1 + 1 * u.val = (I 1).val; omega
  | ⟨2, _⟩ => show win0_0.index t (2 : Fin 4) * 128 + 1 * r.val = (I 2).val; omega
  | ⟨3, _⟩ => show win0_0.index t (3 : Fin 4) * 64 + 1 * d.val = (I 3).val; omega

/-- The k block at (b, u, c', d) is the k array at (b, h, c', d). -/
theorem k_block (c : Dev nD) (t : Fin cfg0.N) (b : Fin 4) (u : Fin 1) (c' : Fin 2048) (d : Fin 64) (I : S4x8x2048x64.Idx)
    (h0 : (I 0).val = b.val) (h1 : (I 1).val = win0_6.index t (1 : Fin 4)) (h2 : (I 2).val = c'.val) (h3 : (I 3).val = d.val) :
    iblk m c 1 t (ix4 b u c' d) = V m c main_arg1 I := by
  obtain ⟨-, -, -, -, -, -, -, -, -, -, -, -, e0, e1, e2, e3, -⟩ := idx_facts t
  have hu := u.isLt
  show V m c main_arg1 (((cfg0.win 1).blk t).view.emb (ix4 b u c' d)) = _
  refine congrArg _ (funext fun a => Fin.ext ?_)
  match a with
  | ⟨0, _⟩ => show win0_1.index t (0 : Fin 4) * 4 + 1 * b.val = (I 0).val; omega
  | ⟨1, _⟩ => show win0_1.index t (1 : Fin 4) * 1 + 1 * u.val = (I 1).val; omega
  | ⟨2, _⟩ => show win0_1.index t (2 : Fin 4) * 2048 + 1 * c'.val = (I 2).val; omega
  | ⟨3, _⟩ => show win0_1.index t (3 : Fin 4) * 64 + 1 * d.val = (I 3).val; omega

/-- The v block at (b, u, c', d) is the v array at (b, h, c', d). -/
theorem v_block (c : Dev nD) (t : Fin cfg0.N) (b : Fin 4) (u : Fin 1) (c' : Fin 2048) (d : Fin 64) (I : S4x8x2048x64.Idx)
    (h0 : (I 0).val = b.val) (h1 : (I 1).val = win0_6.index t (1 : Fin 4)) (h2 : (I 2).val = c'.val) (h3 : (I 3).val = d.val) :
    iblk m c 2 t (ix4 b u c' d) = V m c main_arg2 I := by
  obtain ⟨-, -, -, -, -, -, -, -, -, -, -, -, -, -, -, -, e0, e1, e2, e3, -⟩ := idx_facts t
  have hu := u.isLt
  show V m c main_arg2 (((cfg0.win 2).blk t).view.emb (ix4 b u c' d)) = _
  refine congrArg _ (funext fun a => Fin.ext ?_)
  match a with
  | ⟨0, _⟩ => show win0_2.index t (0 : Fin 4) * 4 + 1 * b.val = (I 0).val; omega
  | ⟨1, _⟩ => show win0_2.index t (1 : Fin 4) * 1 + 1 * u.val = (I 1).val; omega
  | ⟨2, _⟩ => show win0_2.index t (2 : Fin 4) * 2048 + 1 * c'.val = (I 2).val; omega
  | ⟨3, _⟩ => show win0_2.index t (3 : Fin 4) * 64 + 1 * d.val = (I 3).val; omega

/-- The mask tile at (u, r, c') is the mask array at (h, 128·qi + r, c'). -/
theorem mask_block (c : Dev nD) (t : Fin cfg0.N) (u : Fin 1) (r : Fin 128) (c' : Fin 2048) (I : S8x2048x2048.Idx)
    (h0 : (I 0).val = win0_6.index t (1 : Fin 4)) (h1 : (I 1).val = win0_6.index t (2 : Fin 4) * 128 + r.val)
    (h2 : (I 2).val = c'.val) :
    iblk m c 3 t (ix3 u r c') = V m c main_arg3 I := by
  obtain ⟨-, -, -, -, -, -, -, -, -, -, -, -, -, -, -, -, -, -, -, -, e0, e1, e2, -⟩ := idx_facts t
  have hu := u.isLt
  show V m c main_arg3 (((cfg0.win 3).blk t).view.emb (ix3 u r c')) = _
  refine congrArg _ (funext fun a => Fin.ext ?_)
  match a with
  | ⟨0, _⟩ => show win0_3.index t (0 : Fin 3) * 1 + 1 * u.val = (I 0).val; omega
  | ⟨1, _⟩ => show win0_3.index t (1 : Fin 3) * 128 + 1 * r.val = (I 1).val; omega
  | ⟨2, _⟩ => show win0_3.index t (2 : Fin 3) * 2048 + 1 * c'.val = (I 2).val; omega

/-- The bias tile at (u, r, c') is the bias array at (h, 128·qi + r, c'). -/
theorem bias_block (c : Dev nD) (t : Fin cfg0.N) (u : Fin 1) (r : Fin 128) (c' : Fin 2048) (I : S8x2048x2048.Idx)
    (h0 : (I 0).val = win0_6.index t (1 : Fin 4)) (h1 : (I 1).val = win0_6.index t (2 : Fin 4) * 128 + r.val)
    (h2 : (I 2).val = c'.val) :
    iblk m c 4 t (ix3 u r c') = V m c main_arg4 I := by
  obtain ⟨-, -, -, -, -, -, -, -, -, -, -, -, -, -, -, -, -, -, -, -, -, -, -, e0, e1, e2⟩ := idx_facts t
  have hu := u.isLt
  show V m c main_arg4 (((cfg0.win 4).blk t).view.emb (ix3 u r c')) = _
  refine congrArg _ (funext fun a => Fin.ext ?_)
  match a with
  | ⟨0, _⟩ => show win0_4.index t (0 : Fin 3) * 1 + 1 * u.val = (I 0).val; omega
  | ⟨1, _⟩ => show win0_4.index t (1 : Fin 3) * 128 + 1 * r.val = (I 1).val; omega
  | ⟨2, _⟩ => show win0_4.index t (2 : Fin 3) * 2048 + 1 * c'.val = (I 2).val; omega

/-- The row of masked scores a tile's row r sees for batch entry b is the array's row (b, h, 128·qi + r). -/
theorem scoreRow_eq (c : Dev nD) (t : Fin cfg0.N) (b : Fin 4) (r : Fin 128) (B : Fin 4) (H : Fin 8) (R : Fin 2048)
    (hB : B.val = b.val) (hH : H.val = win0_6.index t (1 : Fin 4)) (hR : R.val = win0_6.index t (2 : Fin 4) * 128 + r.val)
    (c' : Fin 2048) :
    scoreRow (iblk m c 0 t) (iblk m c 1 t) (iblk m c 3 t) (iblk m c 4 t) b r c'
      = score (V m c main_arg0) (V m c main_arg1) (V m c main_arg3) (V m c main_arg4) B H R c' := by
  unfold scoreRow score
  rw [mask_block m c t (0 : Fin 1) r c' (ix3 H R c') hH hR rfl, bias_block m c t (0 : Fin 1) r c' (ix3 H R c') hH hR rfl]
  refine congrArg (fun p => maskedScore p _ _) (Finset.sum_congr rfl fun d _ => ?_)
  rw [q_block m c t b (0 : Fin 1) r d (ix4 B H R d) hB hH hR rfl, k_block m c t b (0 : Fin 1) c' d (ix4 B H c' d) hB hH rfl rfl]

/-! ## What a point writes back -/

/-- The block of the probabilities a point writes back is that block of the specification's probabilities. -/
theorem flushed6_eq (c : Dev nD) (t : Fin cfg0.N) :
    (dats m 0 c).flushed 6 t = ((cfg0.win 6).blk t).view.read (Elt Ideal)
      (probs (V m c main_arg0) (V m c main_arg1) (V m c main_arg3) (V m c main_arg4)) := by
  show (cfg0.win 6).cut (grid0.coords t) ((dats m 0 c).after 6 t) = _
  rw [after0_6]
  unfold outsAt0
  funext j
  obtain ⟨b, u, r, cc, rfl⟩ : ∃ (b : Fin 4) (u : Fin 1) (r : Fin 128) (cc : Fin 2048), j = ix4 b u r cc :=
    ⟨j 0, j 1, j 2, j 3, eq_ix4 j⟩
  obtain ⟨e0, e3, -⟩ := idx_facts t
  have hu := u.isLt
  show out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (ix4 b u r cc)
    = probs (V m c main_arg0) (V m c main_arg1) (V m c main_arg3) (V m c main_arg4) (((cfg0.win 6).blk t).view.emb (ix4 b u r cc))
  rw [out6_eq, probsBuf_apply]
  have hB : ((((cfg0.win 6).blk t).view.emb (ix4 b u r cc)) 0).val = b.val := by
    show win0_6.index t (0 : Fin 4) * 4 + 1 * b.val = b.val; omega
  have hH : ((((cfg0.win 6).blk t).view.emb (ix4 b u r cc)) 1).val = win0_6.index t (1 : Fin 4) := by
    show win0_6.index t (1 : Fin 4) * 1 + 1 * u.val = win0_6.index t (1 : Fin 4); omega
  have hR : ((((cfg0.win 6).blk t).view.emb (ix4 b u r cc)) 2).val = win0_6.index t (2 : Fin 4) * 128 + r.val := by
    show win0_6.index t (2 : Fin 4) * 128 + 1 * r.val = win0_6.index t (2 : Fin 4) * 128 + r.val; omega
  have hC : cc = (((cfg0.win 6).blk t).view.emb (ix4 b u r cc)) 3 := Fin.ext (by
    show cc.val = win0_6.index t (3 : Fin 4) * 2048 + 1 * cc.val; omega)
  unfold probs probsAt
  exact (rowSoftmax_congr (fun c' => scoreRow_eq m c t b r _ _ _ hB hH hR c') cc).trans (congrArg _ hC)

/-- The block of the output a point writes back is that block of the specification's output. -/
theorem flushed5_eq (c : Dev nD) (t : Fin cfg0.N) :
    (dats m 0 c).flushed 5 t = ((cfg0.win 5).blk t).view.read (Elt Ideal)
      (output (V m c main_arg0) (V m c main_arg1) (V m c main_arg2) (V m c main_arg3) (V m c main_arg4)) := by
  show (cfg0.win 5).cut (grid0.coords t) ((dats m 0 c).after 5 t) = _
  rw [after0_5]
  unfold outsAt0
  funext j
  obtain ⟨b, u, r, dd, rfl⟩ : ∃ (b : Fin 4) (u : Fin 1) (r : Fin 128) (dd : Fin 64), j = ix4 b u r dd :=
    ⟨j 0, j 1, j 2, j 3, eq_ix4 j⟩
  obtain ⟨-, -, -, -, e0, e1, e2, e3, -⟩ := idx_facts t
  have hu := u.isLt
  show out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (ix4 b u r dd)
    = output (V m c main_arg0) (V m c main_arg1) (V m c main_arg2) (V m c main_arg3) (V m c main_arg4) (((cfg0.win 5).blk t).view.emb (ix4 b u r dd))
  rw [out5_eq, outBuf_apply]
  have hB : ((((cfg0.win 5).blk t).view.emb (ix4 b u r dd)) 0).val = b.val := by
    show win0_5.index t (0 : Fin 4) * 4 + 1 * b.val = b.val; omega
  have hH : ((((cfg0.win 5).blk t).view.emb (ix4 b u r dd)) 1).val = win0_6.index t (1 : Fin 4) := by
    show win0_5.index t (1 : Fin 4) * 1 + 1 * u.val = win0_6.index t (1 : Fin 4); omega
  have hR : ((((cfg0.win 5).blk t).view.emb (ix4 b u r dd)) 2).val = win0_6.index t (2 : Fin 4) * 128 + r.val := by
    show win0_5.index t (2 : Fin 4) * 128 + 1 * r.val = win0_6.index t (2 : Fin 4) * 128 + r.val; omega
  have hD : ((((cfg0.win 5).blk t).view.emb (ix4 b u r dd)) 3).val = dd.val := by
    show win0_5.index t (3 : Fin 4) * 64 + 1 * dd.val = dd.val; omega
  unfold output outputAt probsAt
  refine Finset.sum_congr rfl fun cc _ => ?_
  rw [rowSoftmax_congr (fun c' => scoreRow_eq m c t b r _ _ _ hB hH hR c') cc,
    v_block m c t b (0 : Fin 1) cc dd (ix4 _ _ cc _) hB hH rfl hD]

/-! ## The cover, and the final arrays -/

/-- An index of the probabilities array is in point t's block iff each coordinate is in the block's range. -/
theorem mem_blk6 (t : Fin cfg0.N) (i : S4x8x2048x2048.Idx) :
    i ∈ ((cfg0.win 6).blk t).view.set ↔ ∀ a : Fin 4, win0_6.index t a * S4x1x128x2048.size a ≤ (i a).val
      ∧ (i a).val < win0_6.index t a * S4x1x128x2048.size a + S4x1x128x2048.size a := by
  show i ∈ ((View.whole main_v0_1).slice (win0_6.rect t)).set ↔ _
  rw [View.set_slice_whole, Rect.mem_set_unit]
  exact Iff.rfl

/-- An index of the output array is in point t's block iff each coordinate is in the block's range. -/
theorem mem_blk5 (t : Fin cfg0.N) (i : S4x8x2048x64.Idx) :
    i ∈ ((cfg0.win 5).blk t).view.set ↔ ∀ a : Fin 4, win0_5.index t a * S4x1x128x64.size a ≤ (i a).val
      ∧ (i a).val < win0_5.index t a * S4x1x128x64.size a + S4x1x128x64.size a := by
  show i ∈ ((View.whole main_v0_0).slice (win0_5.rect t)).set ↔ _
  rw [View.set_slice_whole, Rect.mem_set_unit]
  exact Iff.rfl

/-- Every index of the probabilities array is in the block of the point of its head and query tile. -/
theorem cover6 (i : S4x8x2048x2048.Idx) :
    ∃ t : Fin cfg0.N, (cfg0.win 6).flush t = true ∧ i ∈ ((cfg0.win 6).blk t).view.set := by
  have hi0 : (i 0).val < 4 := (i 0).isLt
  have hi1 : (i 1).val < 8 := (i 1).isLt
  have hi2 : (i 2).val < 2048 := (i 2).isLt
  have hi3 : (i 3).val < 2048 := (i 3).isLt
  obtain ⟨t, ht, -⟩ := idx_onto ⟨(i 1).val, hi1⟩ ⟨(i 2).val / 128, by omega⟩
  have q0 : win0_6.index t (0 : Fin 4) = 0 := congrFun ht 0
  have q1 : win0_6.index t (1 : Fin 4) = (i 1).val := congrFun ht 1
  have q2 : win0_6.index t (2 : Fin 4) = (i 2).val / 128 := congrFun ht 2
  have q3 : win0_6.index t (3 : Fin 4) = 0 := congrFun ht 3
  refine ⟨t, flush0_6 t, ?_⟩
  rw [mem_blk6]
  intro a
  match a with
  | ⟨0, _⟩ => show win0_6.index t (0 : Fin 4) * 4 ≤ (i 0).val ∧ (i 0).val < win0_6.index t (0 : Fin 4) * 4 + 4; omega
  | ⟨1, _⟩ => show win0_6.index t (1 : Fin 4) * 1 ≤ (i 1).val ∧ (i 1).val < win0_6.index t (1 : Fin 4) * 1 + 1; omega
  | ⟨2, _⟩ => show win0_6.index t (2 : Fin 4) * 128 ≤ (i 2).val ∧ (i 2).val < win0_6.index t (2 : Fin 4) * 128 + 128; omega
  | ⟨3, _⟩ => show win0_6.index t (3 : Fin 4) * 2048 ≤ (i 3).val ∧ (i 3).val < win0_6.index t (3 : Fin 4) * 2048 + 2048; omega

/-- Every index of the output array is in the block of the point of its head and query tile. -/
theorem cover5 (i : S4x8x2048x64.Idx) :
    ∃ t : Fin cfg0.N, (cfg0.win 5).flush t = true ∧ i ∈ ((cfg0.win 5).blk t).view.set := by
  have hi0 : (i 0).val < 4 := (i 0).isLt
  have hi1 : (i 1).val < 8 := (i 1).isLt
  have hi2 : (i 2).val < 2048 := (i 2).isLt
  have hi3 : (i 3).val < 64 := (i 3).isLt
  obtain ⟨t, -, ht⟩ := idx_onto ⟨(i 1).val, hi1⟩ ⟨(i 2).val / 128, by omega⟩
  have q0 : win0_5.index t (0 : Fin 4) = 0 := congrFun ht 0
  have q1 : win0_5.index t (1 : Fin 4) = (i 1).val := congrFun ht 1
  have q2 : win0_5.index t (2 : Fin 4) = (i 2).val / 128 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 4 ≤ (i 0).val ∧ (i 0).val < win0_5.index t (0 : Fin 4) * 4 + 4; omega
  | ⟨1, _⟩ => show win0_5.index t (1 : Fin 4) * 1 ≤ (i 1).val ∧ (i 1).val < win0_5.index t (1 : Fin 4) * 1 + 1; omega
  | ⟨2, _⟩ => show win0_5.index t (2 : Fin 4) * 128 ≤ (i 2).val ∧ (i 2).val < win0_5.index t (2 : Fin 4) * 128 + 128; omega
  | ⟨3, _⟩ => show win0_5.index t (3 : Fin 4) * 64 ≤ (i 3).val ∧ (i 3).val < win0_5.index t (3 : Fin 4) * 64 + 64; omega

/-- After the run the probabilities array is the specification's probabilities of the argument arrays. -/
theorem final6 (c : Dev nD) : (dats m 0 c).arrAt 6 cfg0.N
    = probs (m ((c : Thread nD τ).loc main_arg0)) (m ((c : Thread nD τ).loc main_arg1)) (m ((c : Thread nD τ).loc main_arg3)) (m ((c : Thread nD τ).loc main_arg4)) :=
  (dats m 0 c).arrAt_eq_of_cover 6 _ (fun t _ => flushed6_eq m c t) cover6

/-- After the run the output array is the specification's output of the argument arrays. -/
theorem final5 (c : Dev nD) : (dats m 0 c).arrAt 5 cfg0.N
    = output (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed5_eq m c t) cover5

/-! ## The run, read -/

/-- The kernel's run: both result arrays at the specification's functions of the argument arrays, the arguments unchanged. -/
theorem run : θ_run defs (onTc (τ := τ) (main (F := Ideal))) ⟨m, fun _ => 0, ρ⟩ fun r => ∀ c : Dev nD,
      r.2.mem ((c : Thread nD τ).loc main_v0_0)
        = output (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1)
        = probs (m ((c : Thread nD τ).loc main_arg0)) (m ((c : Thread nD τ).loc main_arg1)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Arrays

end
-- ==== Proof.LibHostMax.lean ====
/-
  A host maximum reduction of a rank-4 array along its last axis, at the exact values, read at an index given by
  coordinates — a general module, general in the extents: the result at (i, j, k) is the fold of `max` from the initial
  value over the entries (i, j, k, l), l running over the reduced axis.
-/
import Idealize.ShloMosaic.Lib.ValueIdx
import Idealize.ShloMosaic.PureOps.Reduce
import Idealize.ShloMosaic.PureOps.Ideal.Laws

namespace Cert.LibHostMax

open Idealize.ShloMosaic Idealize.ShloMosaic.ValueIdx

/-- Reducing `[a, b, c, d]` over its last axis: over `(i, j, k)`, coordinate `l` on the reduced axis is `(i, j, k, l)`. -/
theorem lift_last_abcd {a b c d : ℕ} (h : (⟨4, ![a, b, c, d]⟩ : Shape).Reduces [3] ⟨3, ![a, b, c]⟩) (i : Fin a) (j : Fin b)
    (k : Fin c) (l : Fin d) : h.lift (ix3 i j k) l = ix4 i j k l := by
  funext ax
  apply Fin.ext
  match ax with
  | ⟨0, _⟩ => rfl
  | ⟨1, _⟩ => rfl
  | ⟨2, _⟩ => rfl
  | ⟨3, _⟩ => rfl

/-- The host's maximum reduction along the last of four axes, at the exact values, read at `(i, j, k)`. -/
theorem hostReduce_max_last_abcd {φ : FTy} {a b c d : ℕ} {u : Shape} (x : FVec Ideal ⟨4, ![a, b, c, d]⟩ φ) (init : FVec Ideal u φ)
    (h' : (⟨4, ![a, b, c, d]⟩ : Shape).ReducesTo [3] ⟨3, ![a, b, c]⟩) (h : (⟨4, ![a, b, c, d]⟩ : Shape).Reduces [3] ⟨3, ![a, b, c]⟩)
    (hu : 0 < u.numel) (i : Fin a) (j : Fin b) (k : Fin c) :
    Host.reduce (FloatOps.maximumf (F := Ideal) (φ := φ)) x init h' hu (ix3 i j k)
      = (Finset.univ : Finset (Fin d)).fold max (init (Shape.Idx.first hu)) (fun l => x (ix4 i j k l)) :=
  (Host.reduce_eq_fold_single (FloatOps.maximumf (F := Ideal) (φ := φ)) x init h' h hu (ix3 i j k)).trans
    (congrArg (fun f => (Finset.univ : Finset (Fin d)).fold max (init (Shape.Idx.first hu)) f)
      (funext fun l => congrArg x (lift_last_abcd h i j k l)))

end Cert.LibHostMax
-- ==== Proof.RefAttention.lean ====
/-
  The reference program computes the attention specification.

  Read one operation at a time, the reference's masked score at (b, h, r, c) is the specification's score (its
  quotient by the word of 8.0 is the product with the word of 0.125, Proof/Consts.lean); its row maximum is the fold of
  `max` from `⊥` over the row (the extra `max` against a broadcast `-∞` that the library softmax adds is `max ⊥ x = x`);
  its normaliser is `0 +` the row's sum of exponentials; so its probabilities are the row softmax, and its second
  result contracts them against the values over the key axis.
-/
import proofs.«160644_j20744692040185_2_alg».proof.Proof.Gen.ReferenceIdeal.Read
import proofs.«160644_j20744692040185_2_alg».proof.Proof.Consts
import proofs.«160644_j20744692040185_2_alg».proof.Proof.Attention
import proofs.«160644_j20744692040185_2_alg».proof.Proof.LibHostMax
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attention

variable (x0 x1 x2 : (⟨S4x8x2048x64, .f32⟩ : BufTy).Contents (Elt Ideal))
  (x3 : (⟨S8x2048x2048, .i32⟩ : BufTy).Contents (Elt Ideal)) (x4 : (⟨S8x2048x2048, .f32⟩ : BufTy).Contents (Elt Ideal))

/-- The reference's masked score at (b, h, r, c) is the specification's. -/
theorem masked_eq (b : Fin 4) (h : Fin 8) (r c : Fin 2048) :
    val_main_v9 (F := Ideal) x0 x1 x3 x4 (ix4 b h r c) = score x0 x1 x3 x4 b h r c := by
  have e3 : idx_main_v6 (idx_main_call0_v1 (ix4 b h r c)) = ix3 h r c :=
    funext fun a => Fin.ext (by match a with | ⟨0, _⟩ => rfl | ⟨1, _⟩ => rfl | ⟨2, _⟩ => rfl)
  have e4 : idx_main_v3 (idx_main_v4 (ix4 b h r c)) = ix3 h r c :=
    funext fun a => Fin.ext (by match a with | ⟨0, _⟩ => rfl | ⟨1, _⟩ => rfl | ⟨2, _⟩ => rfl)
  have el : ∀ k : Fin 64, lidx_main_v0 (ix4 b h r c) k = ix4 b h r k := fun k =>
    funext fun a => Fin.ext (by match a with | ⟨0, _⟩ => rfl | ⟨1, _⟩ => rfl | ⟨2, _⟩ => rfl | ⟨3, _⟩ => rfl)
  have er : ∀ k : Fin 64, ridx_main_v0 (ix4 b h r c) k = ix4 b h c k := fun k =>
    funext fun a => Fin.ext (by match a with | ⟨0, _⟩ => rfl | ⟨1, _⟩ => rfl | ⟨2, _⟩ => rfl | ⟨3, _⟩ => rfl)
  rw [val_main_v9_apply, val_main_call0_v1_apply, val_main_v8_apply, val_main_v6_apply, val_main_v7_apply,
    val_main_c_apply, val_main_call0_v2_apply, val_main_call0_v0_apply, val_main_cst_0_apply, val_main_v5_apply,
    val_main_v2_apply, val_main_v0_apply, val_main_v1_apply, val_main_cst_apply, val_main_v4_apply, val_main_v3_apply,
    e3, e4]
  simp only [el, er]
  unfold score maskedScore
  simp only [Ideal.ofBits_def, Ideal.addf_def, Ideal.hostDivf_def, Cert.Consts.ofBits_neg_inf,
    Cert.Consts.mul_eighth_eq_div_eight]

/-- The reference's row maximum at (b, h, r) is the fold of `max` from `⊥` over the row's masked scores. -/
theorem rowmax_eq (b : Fin 4) (h : Fin 8) (r : Fin 2048) :
    val_main_v12 (F := Ideal) x0 x1 x3 x4 (ix3 b h r)
      = (Finset.univ : Finset (Fin 2048)).fold max ⊥ (fun c => score x0 x1 x3 x4 b h r c) := by
  rw [val_main_v12_apply, val_main_v11_apply, val_main_cst_2_apply]
  unfold val_main_v10
  rw [Cert.LibHostMax.hostReduce_max_last_abcd (val_main_v9 (F := Ideal) x0 x1 x3 x4) (val_main_cst_1 (F := Ideal))
    reducesTo_S4x8x2048x2048_S4x8x2048_d3 (by decide) h_S_ b h r, val_main_cst_1_apply]
  simp only [Ideal.ofBits_def, Ideal.maximumf_def, Cert.Consts.ofBits_neg_inf, masked_eq]
  exact max_bot_left _

/-- The reference's exponential at (b, h, r, c): the masked score less the row's maximum, exponentiated. -/
theorem expo_eq (b : Fin 4) (h : Fin 8) (r c : Fin 2048) :
    val_main_v16 (F := Ideal) x0 x1 x3 x4 (ix4 b h r c)
      = Ideal.exp (score x0 x1 x3 x4 b h r c
          - (Finset.univ : Finset (Fin 2048)).fold max ⊥ (fun c' => score x0 x1 x3 x4 b h r c')) := by
  have e14 : idx_main_v13 (idx_main_v14 (ix4 b h r c)) = ix3 b h r :=
    funext fun a => Fin.ext (by match a with | ⟨0, _⟩ => rfl | ⟨1, _⟩ => rfl | ⟨2, _⟩ => rfl)
  rw [val_main_v16_apply, val_main_v15_apply, val_main_v14_apply, val_main_v13_apply, e14, rowmax_eq, masked_eq]
  simp only [Ideal.hostUnary_exp_def, Ideal.subf_def]

/-- The reference's probabilities at (b, h, r, c) are the specification's: the row softmax of the masked scores. -/
theorem probs_eq (b : Fin 4) (h : Fin 8) (r c : Fin 2048) :
    val_main_v20 (F := Ideal) x0 x1 x3 x4 (ix4 b h r c) = probsAt x0 x1 x3 x4 b h r c := by
  have e19 : idx_main_v18 (idx_main_v19 (ix4 b h r c)) = ix3 b h r :=
    funext fun a => Fin.ext (by match a with | ⟨0, _⟩ => rfl | ⟨1, _⟩ => rfl | ⟨2, _⟩ => rfl)
  have e17 : ∀ k : Fin 2048, idx_main_v17 (ix3 b h r) k = ix4 b h r k := fun k =>
    funext fun a => Fin.ext (by match a with | ⟨0, _⟩ => rfl | ⟨1, _⟩ => rfl | ⟨2, _⟩ => rfl | ⟨3, _⟩ => rfl)
  rw [val_main_v20_apply, val_main_v19_apply, val_main_v18_apply, e19, val_main_v17_apply, val_main_cst_3_apply, expo_eq]
  simp only [e17, expo_eq]
  unfold probsAt rowSoftmax
  simp only [Ideal.ofBits_def, Ideal.hostDivf_def, Cert.Consts.ofBits_zero, zero_add]

/-- The reference's output at (b, h, r, d) is the specification's: the row's probabilities against column d of the values. -/
theorem output_eq (b : Fin 4) (h : Fin 8) (r : Fin 2048) (d : Fin 64) :
    val_main_v21 (F := Ideal) x0 x1 x2 x3 x4 (ix4 b h r d) = outputAt x0 x1 x2 x3 x4 b h r d := by
  have el : ∀ k : Fin 2048, lidx_main_v21 (ix4 b h r d) k = ix4 b h r k := fun k =>
    funext fun a => Fin.ext (by match a with | ⟨0, _⟩ => rfl | ⟨1, _⟩ => rfl | ⟨2, _⟩ => rfl | ⟨3, _⟩ => rfl)
  have er : ∀ k : Fin 2048, ridx_main_v21 (ix4 b h r d) k = ix4 b h k d := fun k =>
    funext fun a => Fin.ext (by match a with | ⟨0, _⟩ => rfl | ⟨1, _⟩ => rfl | ⟨2, _⟩ => rfl | ⟨3, _⟩ => rfl)
  rw [val_main_v21_apply]
  simp only [el, er, probs_eq]
  rfl

/-- The reference's second result, as an array, is the specification's probabilities. -/
theorem probs_array : val_main_v20 (F := Ideal) x0 x1 x3 x4 = probs x0 x1 x3 x4 := by
  funext i
  exact (congrArg (val_main_v20 (F := Ideal) x0 x1 x3 x4) (eq_ix4 i)).trans (probs_eq x0 x1 x3 x4 (i 0) (i 1) (i 2) (i 3))

/-- The reference's first result, as an array, is the specification's output. -/
theorem output_array : val_main_v21 (F := Ideal) x0 x1 x2 x3 x4 = output x0 x1 x2 x3 x4 := by
  funext i
  exact (congrArg (val_main_v21 (F := Ideal) x0 x1 x2 x3 x4) (eq_ix4 i)).trans (output_eq x0 x1 x2 x3 x4 (i 0) (i 1) (i 2) (i 3))

end Cert.ReferenceIdeal.RefValue

end
-- ==== Proof.lean ====
/-
  Masked scaled dot-product attention with an additive bias: a tiled kernel against the whole-array reference, equal on
  the extended reals.

  Both programs return, for q, k, v : [4, 8, 2048, 64], mask : [8, 2048, 2048] (integers) and bias : [8, 2048, 2048],
      probs(b,h,r,·) = softmax_c ( -∞ where mask(h,r,c) = 0, else (Σ_d q(b,h,r,d)·k(b,h,c,d))/8 + bias(h,r,c) ),
      out(b,h,r,d)   = Σ_c probs(b,h,r,c) · v(b,h,c,d).
  The kernel works one (head, 128-row query tile) at a time with all 2048 keys in the tile, one batch entry per trip
  of an inner loop; a row's softmax therefore sees the row whole, and the two programs differ only in how they spell
  three things: the scale (a product with 1/8 against a quotient by 8: one function on every extended real), the fill
  (a finite stand-in the certificate's table reads as -∞, against -∞), and one more `max` against -∞ in the reference's
  softmax (`max ⊥ x = x`). No step needs the inputs finite.

  Proof/Attention.lean states the specification; Proof/RefAttention.lean shows the reference computes it;
  Proof/KernelTile.lean, KernelBody.lean, KernelBodyIdeal.lean and KernelArrays.lean show the kernel does, from one
  trip's arithmetic up to the two result arrays. The frames of the two kernel programs are the generated frame
  certificates, in the copies Proof/KernelRunAP.lean … KernelIdealFrameP.lean (their headers say what differs).
-/
import proofs.«160644_j20744692040185_2_alg».proof.Defs
import proofs.«160644_j20744692040185_2_alg».proof.Proof.Gen.Kernel
import proofs.«160644_j20744692040185_2_alg».proof.Proof.Gen.KernelIdeal
import proofs.«160644_j20744692040185_2_alg».proof.Proof.Gen.ReferenceIdeal
import proofs.«160644_j20744692040185_2_alg».proof.Proof.Gen.ReferenceIdeal.Run
import proofs.«160644_j20744692040185_2_alg».proof.Proof.Gen.ReferenceIdeal.Read
import proofs.«160644_j20744692040185_2_alg».proof.Proof.Gen.Pre_finite_inputs
import proofs.«160644_j20744692040185_2_alg».proof.Proof.KernelFrameP
import proofs.«160644_j20744692040185_2_alg».proof.Proof.KernelIdealFrameP
import proofs.«160644_j20744692040185_2_alg».proof.Proof.KernelArrays
import proofs.«160644_j20744692040185_2_alg».proof.Proof.RefAttention
import Idealize.ShloMosaic.Adequacy
import Idealize.ShloMosaic.Init
import Idealize.ShloMosaic.PureOps.IdealRules

noncomputable section

namespace Cert.Proof

open Idealize.ShloMosaic Idealize.ShloMosaic.TcCoe Idealize.SL.Sem Cert.Attention

/-- The kernel as printed runs and leaves its arguments as they were. -/
theorem frame_kernel : Cert.frame_Kernel := fun m ρ _ => Cert.Kernel.GenP.frame m ρ

/-- So does its idealization. -/
theorem frame_ideal : Cert.frame_KernelIdeal := fun m ρ _ => Cert.KernelIdeal.GenP.frame m ρ

/-- The reference runs and leaves its arguments as they were: its run, the two results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- The one rewrite of the idealization: the kernel's fill word is read as `-∞`, the value the certificate's table gives
    the name. -/
theorem preserves : Cert.preserves_Kernel_KernelIdeal :=
  IdealRules.named_const.statement Cert.KernelIdeal.κ "neg_big" .f32 0xFF333332#32 ⊥ rfl

/-- From memories that agree on the arguments both programs end with the specification's output and probabilities of
    those arguments. -/
theorem algebraic : Cert.algebraic_KernelIdeal_ReferenceIdeal := by
  intro m ρ m' ρ' _ hagree
  refine ⟨fun c => output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => probs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v21_eq, Cert.ReferenceIdeal.RefValue.output_array,
      (hagree c).1, (hagree c).2.1, (hagree c).2.2.1, (hagree c).2.2.2.1, (hagree c).2.2.2.2]
  · rw [(h c).2.1, Cert.ReferenceIdeal.Read.val_main_v20_eq, Cert.ReferenceIdeal.RefValue.probs_array,
      (hagree c).1, (hagree c).2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
